-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x4 : Shape := ⟨2, ![1600000, 4]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  main_v53

def fn_part2 {F : FTy → Type} [FloatOps F] (main_arg8 : FVec F S128x128 .f32) (main_arg9 : FVec F S64x128 .f32) (main_arg10 : FVec F S64 .f32) (main_arg11 : FVec F S64x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S64x128 .f32) (main_arg10 : FVec F S64 .f32) (main_arg11 : FVec F S64x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : FVec F S1600000x4 .f32) (main_arg2 : IVec S2x1600000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S64x128 .f32) (main_arg10 : FVec F S64 .f32) (main_arg11 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x4 .f32 := Host.absf main_arg1
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S1600000x4 : Shape := ⟨2, ![1600000, 4]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S128x64 : Shape := ⟨2, ![128, 64]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 91
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S1600000x4, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .bf16⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S128x128, .f32⟩
  | .hbm, ⟨47, _⟩ => ⟨S128x128, .f32⟩
  | .hbm, ⟨48, _⟩ => ⟨S1x128, .f32⟩
  | .hbm, ⟨49, _⟩ => ⟨S100000x128, .bf16⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .bf16⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S128x128, .f32⟩
  | .hbm, ⟨67, _⟩ => ⟨S128x128, .f32⟩
  | .hbm, ⟨68, _⟩ => ⟨S1x128, .f32⟩
  | .hbm, ⟨69, _⟩ => ⟨S128x64, .f32⟩
  | .hbm, ⟨70, _⟩ => ⟨S100000x128, .bf16⟩
  | .hbm, ⟨71, _⟩ => ⟨S100000x64, .bf16⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .bf16⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S128x64, .f32⟩
  | .hbm, ⟨89, _⟩ => ⟨S1x64, .f32⟩
  | .hbm, ⟨90, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .bf16⟩
  | .local _ .vmem, ⟨3, _⟩ => ⟨S5000x128, .bf16⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x64, .f32⟩
  | .local _ .vmem, ⟨17, _⟩ => ⟨S5000x128, .bf16⟩
  | .local _ .vmem, ⟨18, _⟩ => ⟨S5000x128, .bf16⟩
  | .local _ .vmem, ⟨19, _⟩ => ⟨S5000x64, .bf16⟩
  | .local _ .vmem, ⟨20, _⟩ => ⟨S5000x64, .bf16⟩
  | .local _ .vmem, ⟨21, _⟩ => ⟨S5000x64, .f32⟩
  | .local _ .vmem, ⟨22, _⟩ => ⟨S5000x64, .f32⟩
  | .local _ .vmem, ⟨23, _⟩ => ⟨S5000x128, .bf16⟩
  | .local _ .vmem, ⟨24, _⟩ => ⟨S5000x128, .bf16⟩
  | .local _ .vmem, ⟨25, _⟩ => ⟨S1x64, .f32⟩
  | .local _ .vmem, ⟨26, _⟩ => ⟨S128x64, .f32⟩
  | .local _ .vmem, ⟨27, _⟩ => ⟨S5000x64, .f32⟩
  | .local _ .vmem, ⟨28, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48_0 : Ref sig .tc := ⟨.hbm, 70, rfl⟩
abbrev main_v48_1 : Ref sig .tc := ⟨.hbm, 71, rfl⟩
abbrev main_c_8 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .bf16 = 32 ∨ (Rect.block (s := S100000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .bf16 = 32 ∨ (Rect.block (s := S100000x64) S5000x64.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v48_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v61) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000x4 : Shape := ⟨2, ![1600000, 4]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x4, .f32⟩
  | .hbm, ⟨2, _⟩ => ⟨S2x1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S128x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S128x64, .f32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S128x64, .f32⟩
  | .hbm, ⟨104, _⟩ => ⟨S100000x64, .f32⟩
  | .hbm, ⟨105, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_c_8 : Ref sig .tc := ⟨.hbm, 82, rfl⟩
abbrev main_v56 : Ref sig .tc := ⟨.hbm, 83, rfl⟩
abbrev main_v57 : Ref sig .tc := ⟨.hbm, 84, rfl⟩
abbrev main_c_9 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its result named. The program is three grid regions among stretches of host
  operations; the generated frame already folds the buffer contents through all six segments, ending at the
  contents `W6`. Here the same launch is read once more at the result buffer: after every weakly fair execution
  the result holds what the fold leaves there, and the arguments are as launched.
-/
import proofs.«100264_j44272522887304_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at that buffer, and every argument array is as launched. -/
theorem run_result : θ_run defs (onTc (τ := τ) (main (F := F))) ⟨m, fun _ => 0, ρ⟩ (fun r => ∀ c : Dev nD,
      r.2.mem ((c.tc : Thread nD τ).loc main_v64) = W6 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v64 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.KRun

end
-- ==== Proof.KBody.lean ====
/-
  The three kernel bodies as formulas. Each body handles a block of 5000 node rows: it multiplies the block of
  aggregated neighbour features and the block of node features by two weight matrices (sums over the 128 input
  channels), adds the bias row, and for the hidden layers clips at zero. Format changes are the identity on the
  extended reals, and a matrix product into a zero accumulator is the plain sum of products.
-/
import proofs.«100264_j44272522887304_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KBody

open Cert.KernelIdeal Cert.KernelIdeal.Gen Idealize.ShloMosaic Idealize.ShloMosaic.ValueIdx

/-- A block of 5000 rows times a 128×128 matrix into a zero accumulator: entry (r, j) is the sum over the 128 channels. -/
theorem mm_wide {φ₁ φ₂ : FTy} (l : FVec Ideal S5000x128 φ₁) (w : FVec Ideal S128x128 φ₂) (r : Fin 5000) (j : Fin 128) :
    FloatOps.matmul dot_S5000x128_S128x128_S5000x128_1_0_0_1_n_n none l w (constant S5000x128 .f32 0x00000000#32) (ix2 r j)
      = ∑ k : Fin 128, l (ix2 r k) * w (ix2 k j) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k :=
    funext fun a => Fin.ext (by
      match a with
      | ⟨0, _⟩ =>
        show (dot_S5000x128_S128x128_S5000x128_1_0_0_1_n_n.lhsIdx (ix2 r j) _ 0).val = r.val
        unfold DotDims.lhsIdx
        rw [dif_neg (show ¬(0 : Fin S5000x128.rank) ∈ dot_S5000x128_S128x128_S5000x128_1_0_0_1_n_n.lhsBatch by decide),
          dif_pos (show (0 : Fin S5000x128.rank) ∈ dot_S5000x128_S128x128_S5000x128_1_0_0_1_n_n.lhsNonContracting by decide)]
        rfl
      | ⟨1, _⟩ => exact (dot_S5000x128_S128x128_S5000x128_1_0_0_1_n_n.lhsIdx_val_of_single rfl _ _).trans hk)
  have er : dot_S5000x128_S128x128_S5000x128_1_0_0_1_n_n.rhsIdx (ix2 r j) ((contrEquiv1 dot_S5000x128_S128x128_S5000x128_1_0_0_1_n_n 128 rfl rfl).symm k) = ix2 k j :=
    funext fun a => Fin.ext (by
      match a with
      | ⟨0, _⟩ => exact (dot_S5000x128_S128x128_S5000x128_1_0_0_1_n_n.rhsIdx_val_of_single rfl _ _).trans hk
      | ⟨1, _⟩ =>
        show (dot_S5000x128_S128x128_S5000x128_1_0_0_1_n_n.rhsIdx (ix2 r j) _ 1).val = j.val
        unfold DotDims.rhsIdx
        rw [dif_neg (show ¬(1 : Fin S128x128.rank) ∈ dot_S5000x128_S128x128_S5000x128_1_0_0_1_n_n.rhsBatch by decide),
          dif_pos (show (1 : Fin S128x128.rank) ∈ dot_S5000x128_S128x128_S5000x128_1_0_0_1_n_n.rhsNonContracting by decide)]
        rfl)
  rw [el, er]

/-- A block of 5000 rows times a 128×64 matrix into a zero accumulator: entry (r, j) is the sum over the 128 channels. -/
theorem mm_narrow {φ₁ φ₂ : FTy} (l : FVec Ideal S5000x128 φ₁) (w : FVec Ideal S128x64 φ₂) (r : Fin 5000) (j : Fin 64) :
    FloatOps.matmul dot_S5000x128_S128x64_S5000x64_1_0_0_1_n_n none l w (constant S5000x64 .f32 0x00000000#32) (ix2 r j)
      = ∑ k : Fin 128, l (ix2 r k) * w (ix2 k j) := by
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k :=
    funext fun a => Fin.ext (by
      match a with
      | ⟨0, _⟩ =>
        show (dot_S5000x128_S128x64_S5000x64_1_0_0_1_n_n.lhsIdx (ix2 r j) _ 0).val = r.val
        unfold DotDims.lhsIdx
        rw [dif_neg (show ¬(0 : Fin S5000x128.rank) ∈ dot_S5000x128_S128x64_S5000x64_1_0_0_1_n_n.lhsBatch by decide),
          dif_pos (show (0 : Fin S5000x128.rank) ∈ dot_S5000x128_S128x64_S5000x64_1_0_0_1_n_n.lhsNonContracting by decide)]
        rfl
      | ⟨1, _⟩ => exact (dot_S5000x128_S128x64_S5000x64_1_0_0_1_n_n.lhsIdx_val_of_single rfl _ _).trans hk)
  have er : dot_S5000x128_S128x64_S5000x64_1_0_0_1_n_n.rhsIdx (ix2 r j) ((contrEquiv1 dot_S5000x128_S128x64_S5000x64_1_0_0_1_n_n 128 rfl rfl).symm k) = ix2 k j :=
    funext fun a => Fin.ext (by
      match a with
      | ⟨0, _⟩ => exact (dot_S5000x128_S128x64_S5000x64_1_0_0_1_n_n.rhsIdx_val_of_single rfl _ _).trans hk
      | ⟨1, _⟩ =>
        show (dot_S5000x128_S128x64_S5000x64_1_0_0_1_n_n.rhsIdx (ix2 r j) _ 1).val = j.val
        unfold DotDims.rhsIdx
        rw [dif_neg (show ¬(1 : Fin S128x64.rank) ∈ dot_S5000x128_S128x64_S5000x64_1_0_0_1_n_n.rhsBatch by decide),
          dif_pos (show (1 : Fin S128x64.rank) ∈ dot_S5000x128_S128x64_S5000x64_1_0_0_1_n_n.rhsNonContracting by decide)]
        rfl)
  rw [el, er]

/-- The hidden layer on a block: entry (r, j) is max(Σ_k a[r,k]·wl[k,j] + Σ_k h[r,k]·wr[k,j] + b[0,j], 0). -/
def hidden (a h : (⟨2, ![5000, 128]⟩ : Shape).Idx → EReal) (wl wr : (⟨2, ![128, 128]⟩ : Shape).Idx → EReal)
    (b : (⟨2, ![1, 128]⟩ : Shape).Idx → EReal) (r : Fin 5000) (j : Fin 128) : EReal :=
  max (((∑ k : Fin 128, a (ix2 r k) * wl (ix2 k j)) + ∑ k : Fin 128, h (ix2 r k) * wr (ix2 k j)) + b (ix2 (0 : Fin 1) j))
    (Ideal.ofBits .f32 0x00000000#32)

/-- The first layer's body at (r, j). -/
theorem pay0_apply (v0 : Vec Ideal S5000x128 .f32) (v3 : Vec Ideal S5000x128 .bf16) (v5 v8 : Vec Ideal S128x128 .f32)
    (v14 : Vec Ideal S1x128 .f32) (r : Fin 5000) (j : Fin 128) :
    k0_pay1 (F := Ideal) v0 v3 v5 v8 v14 (ix2 r j) = hidden v0 v3 v5 v8 v14 r j := by
  unfold k0_pay1 hidden
  simp only [shapeCast_self]
  refine (truncf_apply (φ := .f32) (ψ := .bf16) _ bitsLt_bf16_f32 (ix2 r j)).trans ?_
  refine (maximumf_apply _ _ _).trans ?_
  refine congrArg₂ max ?_ rfl
  refine (addf_apply _ _ _).trans ?_
  refine congrArg₂ (· + ·) ?_ (broadcastTo_1b_ab_apply v14 _ r j)
  refine (addf_apply _ _ _).trans ?_
  exact congrArg₂ (· + ·) (mm_wide _ _ r j) (mm_wide _ _ r j)

/-- The second layer's first output at (r, j): the same hidden layer. -/
theorem pay1_apply (v0 : Vec Ideal S5000x128 .f32) (v3 : Vec Ideal S5000x128 .bf16) (v5 v8 : Vec Ideal S128x128 .f32)
    (v14 : Vec Ideal S1x128 .f32) (r : Fin 5000) (j : Fin 128) :
    k1_pay1 (F := Ideal) v0 v3 v5 v8 v14 (ix2 r j) = hidden v0 v3 v5 v8 v14 r j := by
  unfold k1_pay1 hidden
  simp only [shapeCast_self]
  refine (truncf_apply (φ := .f32) (ψ := .bf16) _ bitsLt_bf16_f32 (ix2 r j)).trans ?_
  refine (maximumf_apply _ _ _).trans ?_
  refine congrArg₂ max ?_ rfl
  refine (addf_apply _ _ _).trans ?_
  refine congrArg₂ (· + ·) ?_ (broadcastTo_1b_ab_apply v14 _ r j)
  refine (addf_apply _ _ _).trans ?_
  exact congrArg₂ (· + ·) (mm_wide _ _ r j) (mm_wide _ _ r j)

/-- The second layer's second output at (r, j): the hidden row times the last layer's left weights. -/
theorem pay1p_apply (v0 : Vec Ideal S5000x128 .f32) (v3 : Vec Ideal S5000x128 .bf16) (v5 v8 : Vec Ideal S128x128 .f32)
    (v14 : Vec Ideal S1x128 .f32) (v22 : Vec Ideal S128x64 .f32) (r : Fin 5000) (j : Fin 64) :
    k1_pay2 (F := Ideal) v0 v3 v5 v8 v14 v22 (ix2 r j)
      = ∑ k : Fin 128, hidden v0 v3 v5 v8 v14 r k * v22 (ix2 k j) := by
  unfold k1_pay2
  simp only [shapeCast_self]
  refine (truncf_apply (φ := .f32) (ψ := .bf16) _ bitsLt_bf16_f32 (ix2 r j)).trans ?_
  refine (mm_narrow _ _ r j).trans ?_
  exact Finset.sum_congr rfl fun k _ => congrArg₂ (· * ·) (pay1_apply v0 v3 v5 v8 v14 r k) rfl

/-- The last layer's body at (r, j): a[r,j] + Σ_k h[r,k]·wr[k,j] + b[0,j]. -/
theorem pay2_apply (v0 : Vec Ideal S5000x64 .f32) (v2 : Vec Ideal S5000x128 .bf16) (v4 : Vec Ideal S128x64 .f32)
    (v9 : Vec Ideal S1x64 .f32) (r : Fin 5000) (j : Fin 64) :
    k2_pay1 (F := Ideal) v0 v2 v4 v9 (ix2 r j)
      = (v0 (ix2 r j) + ∑ k : Fin 128, v2 (ix2 r k) * v4 (ix2 k j)) + v9 (ix2 (0 : Fin 1) j) := by
  unfold k2_pay1
  simp only [shapeCast_self]
  refine (addf_apply _ _ _).trans ?_
  refine congrArg₂ (· + ·) ?_ (broadcastTo_1b_ab_apply v9 _ r j)
  refine (addf_apply _ _ _).trans ?_
  exact congrArg₂ (· + ·) rfl (mm_narrow _ _ r j)

end Cert.KernelIdeal.KBody

end
-- ==== Proof.KReg0.lean ====
/-
  The first region on whole arrays. Its grid has 20 points; point t handles node rows 5000·t … 5000·t+4999: it reads
  those rows of the scaled aggregate and of the node features, the two whole weight matrices and the bias row, and
  writes those rows of the hidden features. So the hidden array, row by row, is the hidden layer of the whole arrays.
-/
import proofs.«100264_j44272522887304_2_alg».proof.Proof.Gen.KernelIdeal.Frame
import proofs.«100264_j44272522887304_2_alg».proof.Proof.KBody
import Idealize.ShloMosaic.Lib.Pipeline.Value

set_option maxRecDepth 16384

noncomputable section

namespace Cert.KernelIdeal.KReg0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `r` of point `t`'s block is row `5000·t + r` of the array. -/
def rowOf (t : Fin cfg0.N) (r : Fin 5000) : Fin 100000 :=
  ⟨t.val * 5000 + r.val, by have ht : t.val < 20 := t.isLt; have := r.isLt; omega⟩

/-- The printed index maps at a grid point: a row-blocked window sits at block row `t`, a whole-array window at the origin. -/
structure IdxFacts (t : Fin cfg0.N) : Prop where
  w0 : win0_0.index t (0 : Fin 2) = t.val ∧ win0_0.index t (1 : Fin 2) = 0
  w1 : win0_1.index t (0 : Fin 2) = t.val ∧ win0_1.index t (1 : Fin 2) = 0
  w2 : win0_2.index t (0 : Fin 2) = 0 ∧ win0_2.index t (1 : Fin 2) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = t.val ∧ win0_5.index t (1 : Fin 2) = 0

theorem idx_facts_all : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = 0 ∧ win0_2.index t (1 : Fin 2) = 0) ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = t.val ∧ win0_5.index t (1 : Fin 2) = 0) :=
  (by decide +kernel : ∀ t : Fin grid0.N, _)

theorem idx_facts (t : Fin cfg0.N) : IdxFacts t := by
  obtain ⟨h0, h1, h2, h3, h4, h5⟩ := idx_facts_all t
  exact ⟨h0, h1, h2, h3, h4, h5⟩

/-- Window 0's block at point `t` holds rows `5000·t … 5000·t + 4999` of its array. -/
theorem blk_agg (c : Dev nD) (t : Fin cfg0.N) (r : Fin 5000) (j : Fin 128) :
    iblk0 V c 0 t (ix2 r j) = V c main_v26 (ix2 (rowOf t r) j) := by
  show V c main_v26 (((cfg0.win 0).blk t).view.emb (ix2 r j)) = V c main_v26 _
  refine congrArg _ (funext fun a => Fin.ext ?_)
  have e := idx_facts t
  match a with
  | ⟨0, _⟩ =>
    show win0_0.index t (0 : Fin 2) * 5000 + 1 * r.val = t.val * 5000 + r.val
    rw [e.w0.1]; omega
  | ⟨1, _⟩ =>
    show win0_0.index t (1 : Fin 2) * 128 + 1 * j.val = j.val
    rw [e.w0.2]; omega

/-- Window 1's block at point `t` holds rows `5000·t … 5000·t + 4999` of its array. -/
theorem blk_h (c : Dev nD) (t : Fin cfg0.N) (r : Fin 5000) (j : Fin 128) :
    iblk0 V c 1 t (ix2 r j) = V c main_v13 (ix2 (rowOf t r) j) := by
  show V c main_v13 (((cfg0.win 1).blk t).view.emb (ix2 r j)) = V c main_v13 _
  refine congrArg _ (funext fun a => Fin.ext ?_)
  have e := idx_facts t
  match a with
  | ⟨0, _⟩ =>
    show win0_1.index t (0 : Fin 2) * 5000 + 1 * r.val = t.val * 5000 + r.val
    rw [e.w1.1]; omega
  | ⟨1, _⟩ =>
    show win0_1.index t (1 : Fin 2) * 128 + 1 * j.val = j.val
    rw [e.w1.2]; omega

/-- Window 2's block at every point is its whole array. -/
theorem blk_wl (c : Dev nD) (t : Fin cfg0.N) (p : Fin 128) (q : Fin 128) :
    iblk0 V c 2 t (ix2 p q) = V c main_v27 (ix2 p q) := by
  show V c main_v27 (((cfg0.win 2).blk t).view.emb (ix2 p q)) = V c main_v27 _
  refine congrArg _ (funext fun a => Fin.ext ?_)
  have e := idx_facts t
  match a with
  | ⟨0, _⟩ =>
    show win0_2.index t (0 : Fin 2) * 128 + 1 * p.val = p.val
    rw [e.w2.1]; omega
  | ⟨1, _⟩ =>
    show win0_2.index t (1 : Fin 2) * 128 + 1 * q.val = q.val
    rw [e.w2.2]; omega

/-- Window 3's block at every point is its whole array. -/
theorem blk_b (c : Dev nD) (t : Fin cfg0.N) (p : Fin 1) (q : Fin 128) :
    iblk0 V c 3 t (ix2 p q) = V c main_v29 (ix2 p q) := by
  show V c main_v29 (((cfg0.win 3).blk t).view.emb (ix2 p q)) = V c main_v29 _
  refine congrArg _ (funext fun a => Fin.ext ?_)
  have e := idx_facts t
  match a with
  | ⟨0, _⟩ =>
    show win0_3.index t (0 : Fin 2) * 1 + 1 * p.val = p.val
    rw [e.w3.1]; omega
  | ⟨1, _⟩ =>
    show win0_3.index t (1 : Fin 2) * 128 + 1 * q.val = q.val
    rw [e.w3.2]; omega

/-- Window 4's block at every point is its whole array. -/
theorem blk_wr (c : Dev nD) (t : Fin cfg0.N) (p : Fin 128) (q : Fin 128) :
    iblk0 V c 4 t (ix2 p q) = V c main_v28 (ix2 p q) := by
  show V c main_v28 (((cfg0.win 4).blk t).view.emb (ix2 p q)) = V c main_v28 _
  refine congrArg _ (funext fun a => Fin.ext ?_)
  have e := idx_facts t
  match a with
  | ⟨0, _⟩ =>
    show win0_4.index t (0 : Fin 2) * 128 + 1 * p.val = p.val
    rw [e.w4.1]; omega
  | ⟨1, _⟩ =>
    show win0_4.index t (1 : Fin 2) * 128 + 1 * q.val = q.val
    rw [e.w4.2]; omega

/-- A hidden layer at node `n`, channel `j`, of whole arrays with the bias as a one-row array. -/
def hidAt (a h : S100000x128.Idx → EReal) (wl wr : S128x128.Idx → EReal) (b : S1x128.Idx → EReal)
    (n : Fin 100000) (j : Fin 128) : EReal :=
  max (((∑ k : Fin 128, a (ix2 n k) * wl (ix2 k j)) + ∑ k : Fin 128, h (ix2 n k) * wr (ix2 k j)) + b (ix2 (0 : Fin 1) j))
    (Ideal.ofBits .f32 0x00000000#32)

/-- The hidden layer as one whole-array function. -/
def hidG (a h : S100000x128.Idx → EReal) (wl wr : S128x128.Idx → EReal) (b : S1x128.Idx → EReal) :
    S100000x128.Idx → EReal := fun i => hidAt a h wl wr b ⟨(i 0).val, idx2_lt0 i⟩ ⟨(i 1).val, idx2_lt1 i⟩

/-- The hidden layer of point `t`'s blocks at block row `r` is the hidden layer of the whole arrays at row `5000·t + r`. -/
theorem hidden_blk (c : Dev nD) (t : Fin cfg0.N) (r : Fin 5000) (j : Fin 128) :
    KBody.hidden (iblk0 V c 0 t) (iblk0 V c 1 t) (iblk0 V c 2 t) (iblk0 V c 4 t) (iblk0 V c 3 t) r j
      = hidAt (V c main_v26) (V c main_v13) (V c main_v27) (V c main_v28) (V c main_v29) (rowOf t r) j := by
  unfold KBody.hidden hidAt
  rw [blk_b V c t 0 j]
  refine congrArg₂ max (congrArg₂ (· + ·) (congrArg₂ (· + ·) ?_ ?_) rfl) rfl
  · exact Finset.sum_congr rfl fun k _ => by rw [blk_agg V c t r k, blk_wl V c t k j]
  · exact Finset.sum_congr rfl fun k _ => by rw [blk_h V c t r k, blk_wr V c t k j]

/-- What point `t` writes back is block `t` of the hidden layer of the arrays as the region finds them. -/
theorem flushed_eq (c : Dev nD) (t : Fin cfg0.N) :
    (dat0 V c).flushed 5 t = ((cfg0.win 5).blk t).view.read (Elt Ideal)
      (hidG (V c main_v26) (V c main_v13) (V c main_v27) (V c main_v28) (V c main_v29)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  refine (KBody.pay0_apply (iblk0 V c 0 t) (iblk0 V c 1 t) (iblk0 V c 2 t) (iblk0 V c 4 t) (iblk0 V c 3 t) r j).trans ?_
  have hemb : ((cfg0.win 5).blk t).view.emb (ix2 r j) = ix2 (rowOf t r) j := by
    refine funext fun a => Fin.ext ?_
    have e := idx_facts t
    match a with
    | ⟨0, _⟩ =>
      show win0_5.index t (0 : Fin 2) * 5000 + 1 * r.val = t.val * 5000 + r.val
      rw [e.w5.1]; omega
    | ⟨1, _⟩ =>
      show win0_5.index t (1 : Fin 2) * 128 + 1 * j.val = j.val
      rw [e.w5.2]; omega
  show _ = hidG (V c main_v26) (V c main_v13) (V c main_v27) (V c main_v28) (V c main_v29) (((cfg0.win 5).blk t).view.emb (ix2 r j))
  rw [hemb]
  exact hidden_blk V c t r j

/-- An index of the array is in point `t`'s block of window 5 iff each coordinate is in the block's range. -/
theorem mem_blk5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v30).slice (win0_5.rect t)).set ↔ _
  rw [View.set_slice_whole, Rect.mem_set_unit]
  exact Iff.rfl

/-- Every index of window 5's array lies in the block of the point that owns its row: point `row / 5000`. -/
theorem cover5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  refine ⟨⟨(i 0).val / 5000, by show (i 0).val / 5000 < 20; omega⟩, flush0_5 _, ?_⟩
  rw [mem_blk5]
  have e := idx_facts (⟨(i 0).val / 5000, by show (i 0).val / 5000 < 20; omega⟩ : Fin cfg0.N)
  intro a
  match a with
  | ⟨0, _⟩ =>
    show win0_5.index _ (0 : Fin 2) * 5000 ≤ (i 0).val ∧ (i 0).val < win0_5.index _ (0 : Fin 2) * 5000 + 5000
    rw [e.w5.1]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e.w5.2]; omega

/-- The hidden array after the region: the hidden layer of the arrays the region found. -/
theorem final (c : Dev nD) :
    (dat0 V c).arrAt 5 cfg0.N = hidG (V c main_v26) (V c main_v13) (V c main_v27) (V c main_v28) (V c main_v29) :=
  (dat0 V c).arrAt_eq_of_cover 5 _ (fun t _ => flushed_eq V c t) (cover5)

end Cert.KernelIdeal.KReg0

end
-- ==== Proof.KReg1.lean ====
/-
  The second region on whole arrays. Its grid has 20 points; point t handles node rows 5000·t … 5000·t+4999. It
  writes two arrays: those rows of the second hidden features (the hidden layer of the whole arrays), and those rows
  of their projection by the last layer's left weights (64 wide): Σ_k hidden[n,k]·wl2[k,j].
-/
import proofs.«100264_j44272522887304_2_alg».proof.Proof.Gen.KernelIdeal.Frame
import proofs.«100264_j44272522887304_2_alg».proof.Proof.KBody
import Idealize.ShloMosaic.Lib.Pipeline.Value

set_option maxRecDepth 16384

noncomputable section

namespace Cert.KernelIdeal.KReg1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `r` of point `t`'s block is row `5000·t + r` of the array. -/
def rowOf (t : Fin cfg1.N) (r : Fin 5000) : Fin 100000 :=
  ⟨t.val * 5000 + r.val, by have ht : t.val < 20 := t.isLt; have := r.isLt; omega⟩

/-- The printed index maps at a grid point: a row-blocked window sits at block row `t`, a whole-array window at the origin. -/
structure IdxFacts (t : Fin cfg1.N) : Prop where
  w0 : win1_0.index t (0 : Fin 2) = t.val ∧ win1_0.index t (1 : Fin 2) = 0
  w1 : win1_1.index t (0 : Fin 2) = t.val ∧ win1_1.index t (1 : Fin 2) = 0
  w2 : win1_2.index t (0 : Fin 2) = 0 ∧ win1_2.index t (1 : Fin 2) = 0
  w3 : win1_3.index t (0 : Fin 2) = 0 ∧ win1_3.index t (1 : Fin 2) = 0
  w4 : win1_4.index t (0 : Fin 2) = 0 ∧ win1_4.index t (1 : Fin 2) = 0
  w5 : win1_5.index t (0 : Fin 2) = 0 ∧ win1_5.index t (1 : Fin 2) = 0
  w6 : win1_6.index t (0 : Fin 2) = t.val ∧ win1_6.index t (1 : Fin 2) = 0
  w7 : win1_7.index t (0 : Fin 2) = t.val ∧ win1_7.index t (1 : Fin 2) = 0

theorem idx_facts_all : ∀ t : Fin cfg1.N, (win1_0.index t (0 : Fin 2) = t.val ∧ win1_0.index t (1 : Fin 2) = 0) ∧ (win1_1.index t (0 : Fin 2) = t.val ∧ win1_1.index t (1 : Fin 2) = 0) ∧ (win1_2.index t (0 : Fin 2) = 0 ∧ win1_2.index t (1 : Fin 2) = 0) ∧ (win1_3.index t (0 : Fin 2) = 0 ∧ win1_3.index t (1 : Fin 2) = 0) ∧ (win1_4.index t (0 : Fin 2) = 0 ∧ win1_4.index t (1 : Fin 2) = 0) ∧ (win1_5.index t (0 : Fin 2) = 0 ∧ win1_5.index t (1 : Fin 2) = 0) ∧ (win1_6.index t (0 : Fin 2) = t.val ∧ win1_6.index t (1 : Fin 2) = 0) ∧ (win1_7.index t (0 : Fin 2) = t.val ∧ win1_7.index t (1 : Fin 2) = 0) :=
  (by decide +kernel : ∀ t : Fin grid1.N, _)

theorem idx_facts (t : Fin cfg1.N) : IdxFacts t := by
  obtain ⟨h0, h1, h2, h3, h4, h5, h6, h7⟩ := idx_facts_all t
  exact ⟨h0, h1, h2, h3, h4, h5, h6, h7⟩

/-- Window 0's block at point `t` holds rows `5000·t … 5000·t + 4999` of its array. -/
theorem blk_agg (c : Dev nD) (t : Fin cfg1.N) (r : Fin 5000) (j : Fin 128) :
    iblk1 V c 0 t (ix2 r j) = V c main_v43 (ix2 (rowOf t r) j) := by
  show V c main_v43 (((cfg1.win 0).blk t).view.emb (ix2 r j)) = V c main_v43 _
  refine congrArg _ (funext fun a => Fin.ext ?_)
  have e := idx_facts t
  match a with
  | ⟨0, _⟩ =>
    show win1_0.index t (0 : Fin 2) * 5000 + 1 * r.val = t.val * 5000 + r.val
    rw [e.w0.1]; omega
  | ⟨1, _⟩ =>
    show win1_0.index t (1 : Fin 2) * 128 + 1 * j.val = j.val
    rw [e.w0.2]; omega

/-- Window 1's block at point `t` holds rows `5000·t … 5000·t + 4999` of its array. -/
theorem blk_h (c : Dev nD) (t : Fin cfg1.N) (r : Fin 5000) (j : Fin 128) :
    iblk1 V c 1 t (ix2 r j) = V c main_v30 (ix2 (rowOf t r) j) := by
  show V c main_v30 (((cfg1.win 1).blk t).view.emb (ix2 r j)) = V c main_v30 _
  refine congrArg _ (funext fun a => Fin.ext ?_)
  have e := idx_facts t
  match a with
  | ⟨0, _⟩ =>
    show win1_1.index t (0 : Fin 2) * 5000 + 1 * r.val = t.val * 5000 + r.val
    rw [e.w1.1]; omega
  | ⟨1, _⟩ =>
    show win1_1.index t (1 : Fin 2) * 128 + 1 * j.val = j.val
    rw [e.w1.2]; omega

/-- Window 2's block at every point is its whole array. -/
theorem blk_wl (c : Dev nD) (t : Fin cfg1.N) (p : Fin 128) (q : Fin 128) :
    iblk1 V c 2 t (ix2 p q) = V c main_v44 (ix2 p q) := by
  show V c main_v44 (((cfg1.win 2).blk t).view.emb (ix2 p q)) = V c main_v44 _
  refine congrArg _ (funext fun a => Fin.ext ?_)
  have e := idx_facts t
  match a with
  | ⟨0, _⟩ =>
    show win1_2.index t (0 : Fin 2) * 128 + 1 * p.val = p.val
    rw [e.w2.1]; omega
  | ⟨1, _⟩ =>
    show win1_2.index t (1 : Fin 2) * 128 + 1 * q.val = q.val
    rw [e.w2.2]; omega

/-- Window 3's block at every point is its whole array. -/
theorem blk_b (c : Dev nD) (t : Fin cfg1.N) (p : Fin 1) (q : Fin 128) :
    iblk1 V c 3 t (ix2 p q) = V c main_v46 (ix2 p q) := by
  show V c main_v46 (((cfg1.win 3).blk t).view.emb (ix2 p q)) = V c main_v46 _
  refine congrArg _ (funext fun a => Fin.ext ?_)
  have e := idx_facts t
  match a with
  | ⟨0, _⟩ =>
    show win1_3.index t (0 : Fin 2) * 1 + 1 * p.val = p.val
    rw [e.w3.1]; omega
  | ⟨1, _⟩ =>
    show win1_3.index t (1 : Fin 2) * 128 + 1 * q.val = q.val
    rw [e.w3.2]; omega

/-- Window 4's block at every point is its whole array. -/
theorem blk_wr (c : Dev nD) (t : Fin cfg1.N) (p : Fin 128) (q : Fin 128) :
    iblk1 V c 4 t (ix2 p q) = V c main_v45 (ix2 p q) := by
  show V c main_v45 (((cfg1.win 4).blk t).view.emb (ix2 p q)) = V c main_v45 _
  refine congrArg _ (funext fun a => Fin.ext ?_)
  have e := idx_facts t
  match a with
  | ⟨0, _⟩ =>
    show win1_4.index t (0 : Fin 2) * 128 + 1 * p.val = p.val
    rw [e.w4.1]; omega
  | ⟨1, _⟩ =>
    show win1_4.index t (1 : Fin 2) * 128 + 1 * q.val = q.val
    rw [e.w4.2]; omega

/-- Window 5's block at every point is its whole array. -/
theorem blk_wl2 (c : Dev nD) (t : Fin cfg1.N) (p : Fin 128) (q : Fin 64) :
    iblk1 V c 5 t (ix2 p q) = V c main_v47 (ix2 p q) := by
  show V c main_v47 (((cfg1.win 5).blk t).view.emb (ix2 p q)) = V c main_v47 _
  refine congrArg _ (funext fun a => Fin.ext ?_)
  have e := idx_facts t
  match a with
  | ⟨0, _⟩ =>
    show win1_5.index t (0 : Fin 2) * 128 + 1 * p.val = p.val
    rw [e.w5.1]; omega
  | ⟨1, _⟩ =>
    show win1_5.index t (1 : Fin 2) * 64 + 1 * q.val = q.val
    rw [e.w5.2]; omega

/-- A hidden layer at node `n`, channel `j`, of whole arrays with the bias as a one-row array. -/
def hidAt (a h : S100000x128.Idx → EReal) (wl wr : S128x128.Idx → EReal) (b : S1x128.Idx → EReal)
    (n : Fin 100000) (j : Fin 128) : EReal :=
  max (((∑ k : Fin 128, a (ix2 n k) * wl (ix2 k j)) + ∑ k : Fin 128, h (ix2 n k) * wr (ix2 k j)) + b (ix2 (0 : Fin 1) j))
    (Ideal.ofBits .f32 0x00000000#32)

/-- The hidden layer as one whole-array function. -/
def hidG (a h : S100000x128.Idx → EReal) (wl wr : S128x128.Idx → EReal) (b : S1x128.Idx → EReal) :
    S100000x128.Idx → EReal := fun i => hidAt a h wl wr b ⟨(i 0).val, idx2_lt0 i⟩ ⟨(i 1).val, idx2_lt1 i⟩

/-- The hidden layer of point `t`'s blocks at block row `r` is the hidden layer of the whole arrays at row `5000·t + r`. -/
theorem hidden_blk (c : Dev nD) (t : Fin cfg1.N) (r : Fin 5000) (j : Fin 128) :
    KBody.hidden (iblk1 V c 0 t) (iblk1 V c 1 t) (iblk1 V c 2 t) (iblk1 V c 4 t) (iblk1 V c 3 t) r j
      = hidAt (V c main_v43) (V c main_v30) (V c main_v44) (V c main_v45) (V c main_v46) (rowOf t r) j := by
  unfold KBody.hidden hidAt
  rw [blk_b V c t 0 j]
  refine congrArg₂ max (congrArg₂ (· + ·) (congrArg₂ (· + ·) ?_ ?_) rfl) rfl
  · exact Finset.sum_congr rfl fun k _ => by rw [blk_agg V c t r k, blk_wl V c t k j]
  · exact Finset.sum_congr rfl fun k _ => by rw [blk_h V c t r k, blk_wr V c t k j]

/-- The projection at node `n`, channel `j`: the hidden row times the last layer's left weights. -/
def projG (a h : S100000x128.Idx → EReal) (wl wr : S128x128.Idx → EReal) (b : S1x128.Idx → EReal)
    (wl2 : S128x64.Idx → EReal) : S100000x64.Idx → EReal :=
  fun i => ∑ k : Fin 128, hidAt a h wl wr b ⟨(i 0).val, idx2_lt0 i⟩ k * wl2 (ix2 k ⟨(i 1).val, idx2_lt1 i⟩)

/-- What point `t` writes back through the first output window is block `t` of the hidden layer. -/
theorem flushed_eq6 (c : Dev nD) (t : Fin cfg1.N) :
    (dat1 V c).flushed 6 t = ((cfg1.win 6).blk t).view.read (Elt Ideal)
      (hidG (V c main_v43) (V c main_v30) (V c main_v44) (V c main_v45) (V c main_v46)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  funext y
  obtain ⟨r, j, rfl⟩ : ∃ (r : Fin 5000) (j : Fin 128), y = ix2 r j := ⟨y 0, y 1, eq_ix2 y⟩
  refine (KBody.pay1_apply (iblk1 V c 0 t) (iblk1 V c 1 t) (iblk1 V c 2 t) (iblk1 V c 4 t) (iblk1 V c 3 t) r j).trans ?_
  have hemb : ((cfg1.win 6).blk t).view.emb (ix2 r j) = ix2 (rowOf t r) j := by
    refine funext fun a => Fin.ext ?_
    have e := idx_facts t
    match a with
    | ⟨0, _⟩ =>
      show win1_6.index t (0 : Fin 2) * 5000 + 1 * r.val = t.val * 5000 + r.val
      rw [e.w6.1]; omega
    | ⟨1, _⟩ =>
      show win1_6.index t (1 : Fin 2) * 128 + 1 * j.val = j.val
      rw [e.w6.2]; omega
  show _ = hidG (V c main_v43) (V c main_v30) (V c main_v44) (V c main_v45) (V c main_v46) (((cfg1.win 6).blk t).view.emb (ix2 r j))
  rw [hemb]
  exact hidden_blk V c t r j

/-- What point `t` writes back through the second output window is block `t` of the projection. -/
theorem flushed_eq7 (c : Dev nD) (t : Fin cfg1.N) :
    (dat1 V c).flushed 7 t = ((cfg1.win 7).blk t).view.read (Elt Ideal)
      (projG (V c main_v43) (V c main_v30) (V c main_v44) (V c main_v45) (V c main_v46) (V c main_v47)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz,
    View.ld_unit_zero (S := S128x64) hz]
  funext y
  obtain ⟨r, j, rfl⟩ : ∃ (r : Fin 5000) (j : Fin 64), y = ix2 r j := ⟨y 0, y 1, eq_ix2 y⟩
  refine (KBody.pay1p_apply (iblk1 V c 0 t) (iblk1 V c 1 t) (iblk1 V c 2 t) (iblk1 V c 4 t) (iblk1 V c 3 t) (iblk1 V c 5 t) r j).trans ?_
  have hemb : ((cfg1.win 7).blk t).view.emb (ix2 r j) = ix2 (rowOf t r) j := by
    refine funext fun a => Fin.ext ?_
    have e := idx_facts t
    match a with
    | ⟨0, _⟩ =>
      show win1_7.index t (0 : Fin 2) * 5000 + 1 * r.val = t.val * 5000 + r.val
      rw [e.w7.1]; omega
    | ⟨1, _⟩ =>
      show win1_7.index t (1 : Fin 2) * 64 + 1 * j.val = j.val
      rw [e.w7.2]; omega
  show _ = projG (V c main_v43) (V c main_v30) (V c main_v44) (V c main_v45) (V c main_v46) (V c main_v47) (((cfg1.win 7).blk t).view.emb (ix2 r j))
  rw [hemb]
  show _ = ∑ k : Fin 128, hidAt (V c main_v43) (V c main_v30) (V c main_v44) (V c main_v45) (V c main_v46) (rowOf t r) k * V c main_v47 (ix2 k j)
  exact Finset.sum_congr rfl fun k _ => by rw [hidden_blk V c t r k, blk_wl2 V c t k j]

/-- An index of the array is in point `t`'s block of window 6 iff each coordinate is in the block's range. -/
theorem mem_blk6 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v48_0).slice (win1_6.rect t)).set ↔ _
  rw [View.set_slice_whole, Rect.mem_set_unit]
  exact Iff.rfl

/-- Every index of window 6's array lies in the block of the point that owns its row: point `row / 5000`. -/
theorem cover6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  refine ⟨⟨(i 0).val / 5000, by show (i 0).val / 5000 < 20; omega⟩, flush1_6 _, ?_⟩
  rw [mem_blk6]
  have e := idx_facts (⟨(i 0).val / 5000, by show (i 0).val / 5000 < 20; omega⟩ : Fin cfg1.N)
  intro a
  match a with
  | ⟨0, _⟩ =>
    show win1_6.index _ (0 : Fin 2) * 5000 ≤ (i 0).val ∧ (i 0).val < win1_6.index _ (0 : Fin 2) * 5000 + 5000
    rw [e.w6.1]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e.w6.2]; omega

/-- An index of the array is in point `t`'s block of window 7 iff each coordinate is in the block's range. -/
theorem mem_blk7 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v48_1).slice (win1_7.rect t)).set ↔ _
  rw [View.set_slice_whole, Rect.mem_set_unit]
  exact Iff.rfl

/-- Every index of window 7's array lies in the block of the point that owns its row: point `row / 5000`. -/
theorem cover7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  refine ⟨⟨(i 0).val / 5000, by show (i 0).val / 5000 < 20; omega⟩, flush1_7 _, ?_⟩
  rw [mem_blk7]
  have e := idx_facts (⟨(i 0).val / 5000, by show (i 0).val / 5000 < 20; omega⟩ : Fin cfg1.N)
  intro a
  match a with
  | ⟨0, _⟩ =>
    show win1_7.index _ (0 : Fin 2) * 5000 ≤ (i 0).val ∧ (i 0).val < win1_7.index _ (0 : Fin 2) * 5000 + 5000
    rw [e.w7.1]; show (i 0).val / 5000 * 5000 ≤ (i 0).val ∧ (i 0).val < (i 0).val / 5000 * 5000 + 5000; omega
  | ⟨1, _⟩ =>
    show win1_7.index _ (1 : Fin 2) * 64 ≤ (i 1).val ∧ (i 1).val < win1_7.index _ (1 : Fin 2) * 64 + 64
    rw [e.w7.2]; omega

/-- The second hidden array after the region. -/
theorem final6 (c : Dev nD) :
    (dat1 V c).arrAt 6 cfg1.N = hidG (V c main_v43) (V c main_v30) (V c main_v44) (V c main_v45) (V c main_v46) :=
  (dat1 V c).arrAt_eq_of_cover 6 _ (fun t _ => flushed_eq6 V c t) (cover6)

/-- The projection array after the region. -/
theorem final7 (c : Dev nD) :
    (dat1 V c).arrAt 7 cfg1.N = projG (V c main_v43) (V c main_v30) (V c main_v44) (V c main_v45) (V c main_v46) (V c main_v47) :=
  (dat1 V c).arrAt_eq_of_cover 7 _ (fun t _ => flushed_eq7 V c t) (cover7)

end Cert.KernelIdeal.KReg1

end
-- ==== Proof.KReg2.lean ====
/-
  The last region on whole arrays. Its grid has 20 points; point t handles node rows 5000·t … 5000·t+4999: it reads
  those rows of the scaled aggregate (64 wide) and of the hidden features (128 wide), the whole right weight matrix
  and the bias row, and writes those rows of the result. So the result array, row by row, is
  a[n,j] + Σ_k h[n,k]·wr[k,j] + b[0,j].
-/
import proofs.«100264_j44272522887304_2_alg».proof.Proof.Gen.KernelIdeal.Frame
import proofs.«100264_j44272522887304_2_alg».proof.Proof.KBody
import Idealize.ShloMosaic.Lib.Pipeline.Value

set_option maxRecDepth 16384

noncomputable section

namespace Cert.KernelIdeal.KReg2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `r` of point `t`'s block is row `5000·t + r` of the array. -/
def rowOf (t : Fin cfg2.N) (r : Fin 5000) : Fin 100000 :=
  ⟨t.val * 5000 + r.val, by have ht : t.val < 20 := t.isLt; have := r.isLt; omega⟩

/-- The printed index maps at a grid point: a row-blocked window sits at block row `t`, a whole-array window at the origin. -/
structure IdxFacts (t : Fin cfg2.N) : Prop where
  w0 : win2_0.index t (0 : Fin 2) = t.val ∧ win2_0.index t (1 : Fin 2) = 0
  w1 : win2_1.index t (0 : Fin 2) = t.val ∧ win2_1.index t (1 : Fin 2) = 0
  w2 : win2_2.index t (0 : Fin 2) = 0 ∧ win2_2.index t (1 : Fin 2) = 0
  w3 : win2_3.index t (0 : Fin 2) = 0 ∧ win2_3.index t (1 : Fin 2) = 0
  w4 : win2_4.index t (0 : Fin 2) = t.val ∧ win2_4.index t (1 : Fin 2) = 0

theorem idx_facts_all : ∀ t : Fin cfg2.N, (win2_0.index t (0 : Fin 2) = t.val ∧ win2_0.index t (1 : Fin 2) = 0) ∧ (win2_1.index t (0 : Fin 2) = t.val ∧ win2_1.index t (1 : Fin 2) = 0) ∧ (win2_2.index t (0 : Fin 2) = 0 ∧ win2_2.index t (1 : Fin 2) = 0) ∧ (win2_3.index t (0 : Fin 2) = 0 ∧ win2_3.index t (1 : Fin 2) = 0) ∧ (win2_4.index t (0 : Fin 2) = t.val ∧ win2_4.index t (1 : Fin 2) = 0) :=
  (by decide +kernel : ∀ t : Fin grid2.N, _)

theorem idx_facts (t : Fin cfg2.N) : IdxFacts t := by
  obtain ⟨h0, h1, h2, h3, h4⟩ := idx_facts_all t
  exact ⟨h0, h1, h2, h3, h4⟩

/-- Window 0's block at point `t` holds rows `5000·t … 5000·t + 4999` of its array. -/
theorem blk_agg (c : Dev nD) (t : Fin cfg2.N) (r : Fin 5000) (j : Fin 64) :
    iblk2 V c 0 t (ix2 r j) = V c main_v61 (ix2 (rowOf t r) j) := by
  show V c main_v61 (((cfg2.win 0).blk t).view.emb (ix2 r j)) = V c main_v61 _
  refine congrArg _ (funext fun a => Fin.ext ?_)
  have e := idx_facts t
  match a with
  | ⟨0, _⟩ =>
    show win2_0.index t (0 : Fin 2) * 5000 + 1 * r.val = t.val * 5000 + r.val
    rw [e.w0.1]; omega
  | ⟨1, _⟩ =>
    show win2_0.index t (1 : Fin 2) * 64 + 1 * j.val = j.val
    rw [e.w0.2]; omega

/-- Window 1's block at point `t` holds rows `5000·t … 5000·t + 4999` of its array. -/
theorem blk_h (c : Dev nD) (t : Fin cfg2.N) (r : Fin 5000) (j : Fin 128) :
    iblk2 V c 1 t (ix2 r j) = V c main_v48_0 (ix2 (rowOf t r) j) := by
  show V c main_v48_0 (((cfg2.win 1).blk t).view.emb (ix2 r j)) = V c main_v48_0 _
  refine congrArg _ (funext fun a => Fin.ext ?_)
  have e := idx_facts t
  match a with
  | ⟨0, _⟩ =>
    show win2_1.index t (0 : Fin 2) * 5000 + 1 * r.val = t.val * 5000 + r.val
    rw [e.w1.1]; omega
  | ⟨1, _⟩ =>
    show win2_1.index t (1 : Fin 2) * 128 + 1 * j.val = j.val
    rw [e.w1.2]; omega

/-- Window 2's block at every point is its whole array. -/
theorem blk_b (c : Dev nD) (t : Fin cfg2.N) (p : Fin 1) (q : Fin 64) :
    iblk2 V c 2 t (ix2 p q) = V c main_v63 (ix2 p q) := by
  show V c main_v63 (((cfg2.win 2).blk t).view.emb (ix2 p q)) = V c main_v63 _
  refine congrArg _ (funext fun a => Fin.ext ?_)
  have e := idx_facts t
  match a with
  | ⟨0, _⟩ =>
    show win2_2.index t (0 : Fin 2) * 1 + 1 * p.val = p.val
    rw [e.w2.1]; omega
  | ⟨1, _⟩ =>
    show win2_2.index t (1 : Fin 2) * 64 + 1 * q.val = q.val
    rw [e.w2.2]; omega

/-- Window 3's block at every point is its whole array. -/
theorem blk_wr (c : Dev nD) (t : Fin cfg2.N) (p : Fin 128) (q : Fin 64) :
    iblk2 V c 3 t (ix2 p q) = V c main_v62 (ix2 p q) := by
  show V c main_v62 (((cfg2.win 3).blk t).view.emb (ix2 p q)) = V c main_v62 _
  refine congrArg _ (funext fun a => Fin.ext ?_)
  have e := idx_facts t
  match a with
  | ⟨0, _⟩ =>
    show win2_3.index t (0 : Fin 2) * 128 + 1 * p.val = p.val
    rw [e.w3.1]; omega
  | ⟨1, _⟩ =>
    show win2_3.index t (1 : Fin 2) * 64 + 1 * q.val = q.val
    rw [e.w3.2]; omega

/-- The last layer at node `n`, output channel `j`. -/
def outAt (a : S100000x64.Idx → EReal) (h : S100000x128.Idx → EReal) (b : S1x64.Idx → EReal) (wr : S128x64.Idx → EReal)
    (n : Fin 100000) (j : Fin 64) : EReal :=
  (a (ix2 n j) + ∑ k : Fin 128, h (ix2 n k) * wr (ix2 k j)) + b (ix2 (0 : Fin 1) j)

/-- The last layer as one whole-array function. -/
def outG (a : S100000x64.Idx → EReal) (h : S100000x128.Idx → EReal) (b : S1x64.Idx → EReal) (wr : S128x64.Idx → EReal) :
    S100000x64.Idx → EReal := fun i => outAt a h b wr (i 0) (i 1)

/-- What point `t` writes back is block `t` of the whole-array function of the arrays as the region finds them. -/
theorem flushed_eq (c : Dev nD) (t : Fin cfg2.N) :
    (dat2 V c).flushed 4 t = ((cfg2.win 4).blk t).view.read (Elt Ideal)
      (outG (V c main_v61) (V c main_v48_0) (V c main_v63) (V c main_v62)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x128) hz,
    View.ld_unit_zero (S := S128x64) hz, View.ld_unit_zero (S := S1x64) hz]
  funext y
  obtain ⟨r, j, rfl⟩ : ∃ (r : Fin 5000) (j : Fin 64), y = ix2 r j := ⟨y 0, y 1, eq_ix2 y⟩
  refine (KBody.pay2_apply (iblk2 V c 0 t) (iblk2 V c 1 t) (iblk2 V c 3 t) (iblk2 V c 2 t) r j).trans ?_
  have hemb : ((cfg2.win 4).blk t).view.emb (ix2 r j) = ix2 (rowOf t r) j := by
    refine funext fun a => Fin.ext ?_
    have e := idx_facts t
    match a with
    | ⟨0, _⟩ =>
      show win2_4.index t (0 : Fin 2) * 5000 + 1 * r.val = t.val * 5000 + r.val
      rw [e.w4.1]; omega
    | ⟨1, _⟩ =>
      show win2_4.index t (1 : Fin 2) * 64 + 1 * j.val = j.val
      rw [e.w4.2]; omega
  show _ = outG (V c main_v61) (V c main_v48_0) (V c main_v63) (V c main_v62) (((cfg2.win 4).blk t).view.emb (ix2 r j))
  rw [hemb, blk_agg V c t r j, blk_b V c t 0 j]
  show _ = outAt (V c main_v61) (V c main_v48_0) (V c main_v63) (V c main_v62) (rowOf t r) j
  unfold outAt
  refine congrArg₂ (· + ·) (congrArg₂ (· + ·) rfl ?_) rfl
  exact Finset.sum_congr rfl fun k _ => by rw [blk_h V c t r k, blk_wr V c t k j]

/-- An index of the array is in point `t`'s block of window 4 iff each coordinate is in the block's range. -/
theorem mem_blk4 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v64).slice (win2_4.rect t)).set ↔ _
  rw [View.set_slice_whole, Rect.mem_set_unit]
  exact Iff.rfl

/-- Every index of window 4's array lies in the block of the point that owns its row: point `row / 5000`. -/
theorem cover4 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  refine ⟨⟨(i 0).val / 5000, by show (i 0).val / 5000 < 20; omega⟩, flush2_4 _, ?_⟩
  rw [mem_blk4]
  have e := idx_facts (⟨(i 0).val / 5000, by show (i 0).val / 5000 < 20; omega⟩ : Fin cfg2.N)
  intro a
  match a with
  | ⟨0, _⟩ =>
    show win2_4.index _ (0 : Fin 2) * 5000 ≤ (i 0).val ∧ (i 0).val < win2_4.index _ (0 : Fin 2) * 5000 + 5000
    rw [e.w4.1]; show (i 0).val / 5000 * 5000 ≤ (i 0).val ∧ (i 0).val < (i 0).val / 5000 * 5000 + 5000; omega
  | ⟨1, _⟩ =>
    show win2_4.index _ (1 : Fin 2) * 64 ≤ (i 1).val ∧ (i 1).val < win2_4.index _ (1 : Fin 2) * 64 + 64
    rw [e.w4.2]; omega

/-- The result array after the region: the last layer of the arrays the region found, at every node and channel. -/
theorem final (c : Dev nD) :
    (dat2 V c).arrAt 4 cfg2.N = outG (V c main_v61) (V c main_v48_0) (V c main_v63) (V c main_v62) :=
  (dat2 V c).arrAt_eq_of_cover 4 _ (fun t _ => flushed_eq V c t) (cover4)

end Cert.KernelIdeal.KReg2

end
-- ==== Proof.LibRowGather.lean ====
/-
  Whole-row gather and scatter-add of a rank-2 array, read at an index.

  A gather of whole rows `h[src]` of an operand `[N, C]` at start indices `[E, 1]` reads, at `(e, c)`, the operand at
  the row the start index names (read signed, clamped into `[0, N − 1]`) and column `c`. The scatter with an `add`
  body of updates `[E, C]` into an operand `[N, C]` at scatter indices `[E, 1]` adds to element `(n, c)` the updates
  `(e, c)` of the edges `e` whose scatter index (read signed, not clamped) is `n`.
-/
import Idealize.ShloMosaic.PureOps.Ideal
import Idealize.ShloMosaic.PureOps.Contract
import Idealize.ShloMosaic.PureOps.ShapeOps
import Idealize.ShloMosaic.Lib.ValueIdx

noncomputable section

open scoped BigOperators

namespace Cert.RowOps

open Idealize.ShloMosaic Idealize.ShloMosaic.ValueIdx

/-! ## The gather of whole rows -/

/-- The dimension numbers of a gather of whole rows: operand `[N, C]`, start indices `[E, 1]`, result `[E, C]`; axis 0 is
    collapsed and indexed, axis 1 is the one offset axis, slice sizes `[1, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an edge reads: its start index read signed, clamped into `[0, N − 1]`. -/
def srcRow {N E w : Nat} (hN : 0 < N) (idx : IVec ⟨2, ![E, 1]⟩ w) (e : Fin E) : Fin N :=
  ⟨min (idx (ix2 e 0)).toInt.toNat (N - 1), by omega⟩

/-- The gather of whole rows read at `(e, c)`: the operand at the clamped source row of edge `e` and column `c`. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (srcRow hN idx e) c) := by
  have h0 : (rowGather N E C wf).operandIdx (ix2 e c) idx 0 = srcRow hN idx e := by
    refine Fin.ext ?_
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : (rowGather N E C wf).operandIdx (ix2 e c) idx 1 = c := by
    refine Fin.ext ?_
    show (rowGather N E C wf).start (ix2 e c) idx 1 + (rowGather N E C wf).batchCoord (ix2 e c) 1
      + (rowGather N E C wf).offCoord (ix2 e c) 1 = _
    rw [GatherDims.batchCoord_eq_zero _ _ _ List.not_mem_nil]
    unfold GatherDims.start
    rw [dif_neg (show (1 : Fin 2) ∉ (rowGather N E C wf).startIndexMap from (by decide : (1 : Fin 2) ∉ ([0] : List (Fin 2))))]
    simp only [Nat.add_zero, Nat.zero_add]
    unfold GatherDims.offCoord
    rw [dif_pos ((GatherDims.mem_sKept _ _).mpr ⟨(by decide : (1 : Fin 2) ∉ ([0] : List (Fin 2))), List.not_mem_nil⟩)]
    rfl
  unfold Host.gather
  congr 1
  funext a
  match a with
  | ⟨0, _⟩ => exact h0
  | ⟨1, _⟩ => exact h1

/-! ## The scatter of whole rows with an `add` body -/

/-- The dimension numbers of a scatter of whole rows: operand `[N, C]`, scatter indices `[E, 1]`, updates `[E, C]`;
    operand axis 0 is inserted and indexed, update axis 1 is the one window axis. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e`'s update lands on row `n`: its scatter index, read signed and NOT clamped, is `n`. -/
def Lands {N E w : Nat} (idx : IVec ⟨2, ![E, 1]⟩ w) (e : Fin E) (n : Fin N) : Prop :=
  (idx (ix2 e 0)).toInt = (n.val : Int)

/-- Landing on a row is an equality of integers, hence decidable. -/
instance {N E w : Nat} (idx : IVec ⟨2, ![E, 1]⟩ w) (e : Fin E) (n : Fin N) : Decidable (Lands idx e n) :=
  inferInstanceAs (Decidable ((idx (ix2 e 0)).toInt = (n.val : Int)))

/-- On the indexed axis the window of update `(e, c)` starts at edge `e`'s scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e c) ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window of every update starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx 1 = 0 := by
  unfold ScatterDims.start
  rw [dif_neg (show (1 : Fin 2) ∉ (rowScatter N E C wf).scatterDimsToOperandDims from
    (by decide : (1 : Fin 2) ∉ ([0] : List (Fin 2))))]

/-- The window coordinate of every update on the inserted axis is `0`. -/
theorem rowScatter_window0 {N E C : Nat} (wf : ScatterDims.WF ⟨2, ![N, C]⟩ ⟨2, ![E, 1]⟩ ⟨2, ![E, C]⟩ [1] [0] [0] 1)
    (e : Fin E) (c : Fin C) :
    (rowScatter N E C wf).window (ix2 e c) 0 = 0 := by
  unfold ScatterDims.window
  rw [dif_neg (show (0 : Fin 2) ∉ (rowScatter N E C wf).sKept from
    (by decide : (0 : Fin 2) ∉ (List.finRange 2).filter (· ∉ ([0] : List (Fin 2)))))]

/-- The window coordinate of update `(e, c)` on the column axis is `c`. -/
theorem rowScatter_window1 {N E C : Nat} (wf : ScatterDims.WF ⟨2, ![N, C]⟩ ⟨2, ![E, 1]⟩ ⟨2, ![E, C]⟩ [1] [0] [0] 1)
    (e : Fin E) (c : Fin C) :
    (rowScatter N E C wf).window (ix2 e c) 1 = c.val := by
  unfold ScatterDims.window
  rw [dif_pos (show (1 : Fin 2) ∈ (rowScatter N E C wf).sKept from
    (by decide : (1 : Fin 2) ∈ (List.finRange 2).filter (· ∉ ([0] : List (Fin 2)))))]
  rfl

/-- Update `(e, c)` lands on operand element `(n, c')` exactly when edge `e` lands on row `n` and the columns agree. -/
theorem rowScatter_resultIdx {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatter N E C wf).resultIdx? (ix2 e c) idx = some (ix2 n c') ↔ Lands idx e n ∧ c = c' := by
  have hs0 := rowScatter_start0 wf idx e c
  have hs1 := rowScatter_start1 wf idx e c
  have hw0 := rowScatter_window0 wf e c
  have hw1 := rowScatter_window1 wf e c
  have k0 : (rowScatter N E C wf).start (ix2 e c) idx 0 + ((rowScatter N E C wf).window (ix2 e c) 0 : Int)
      = (idx (ix2 e 0)).toInt := by rw [hs0, hw0]; simp
  have k1 : (rowScatter N E C wf).start (ix2 e c) idx 1 + ((rowScatter N E C wf).window (ix2 e c) 1 : Int)
      = (c.val : Int) := by rw [hs1, hw1]; simp
  unfold ScatterDims.resultIdx?
  constructor
  · intro h
    split at h
    · rename_i hall
      have hf := Option.some.inj h
      have e0 := congrArg Fin.val (congrFun hf 0)
      have e1 := congrArg Fin.val (congrFun hf 1)
      have b0 := (hall 0).1
      rw [k0] at b0
      simp only [k0, k1] at e0 e1
      change _ = n.val at e0
      change _ = c'.val at e1
      refine ⟨?_, Fin.ext ?_⟩
      · show (idx (ix2 e 0)).toInt = (n.val : Int)
        omega
      · omega
    · exact absurd h (by simp)
  · rintro ⟨hl, rfl⟩
    have hl' : (idx (ix2 e 0)).toInt = (n.val : Int) := hl
    have hn := n.isLt
    have hc := c.isLt
    have hall : ∀ a : Fin 2,
        0 ≤ (rowScatter N E C wf).start (ix2 e c) idx a + ((rowScatter N E C wf).window (ix2 e c) a : Int) ∧
        (rowScatter N E C wf).start (ix2 e c) idx a + ((rowScatter N E C wf).window (ix2 e c) a : Int)
          < (((⟨2, ![N, C]⟩ : Shape).size a : Nat) : Int) := by
      intro a
      match a with
      | ⟨0, _⟩ =>
        show 0 ≤ (rowScatter N E C wf).start (ix2 e c) idx 0 + ((rowScatter N E C wf).window (ix2 e c) 0 : Int) ∧
          (rowScatter N E C wf).start (ix2 e c) idx 0 + ((rowScatter N E C wf).window (ix2 e c) 0 : Int) < ((N : Nat) : Int)
        rw [k0]; omega
      | ⟨1, _⟩ =>
        show 0 ≤ (rowScatter N E C wf).start (ix2 e c) idx 1 + ((rowScatter N E C wf).window (ix2 e c) 1 : Int) ∧
          (rowScatter N E C wf).start (ix2 e c) idx 1 + ((rowScatter N E C wf).window (ix2 e c) 1 : Int) < ((C : Nat) : Int)
        rw [k1]; omega
    rw [dif_pos hall]
    congr 1
    funext a
    refine Fin.ext ?_
    match a with
    | ⟨0, _⟩ =>
      show ((rowScatter N E C wf).start (ix2 e c) idx 0 + ((rowScatter N E C wf).window (ix2 e c) 0 : Int)).toNat = n.val
      rw [k0]; omega
    | ⟨1, _⟩ =>
      show ((rowScatter N E C wf).start (ix2 e c) idx 1 + ((rowScatter N E C wf).window (ix2 e c) 1 : Int)).toNat = c.val
      rw [k1]; omega

/-- THE SCATTER-ADD OF WHOLE ROWS READ AT `(n, c)`, at the ideal instance: the operand's element plus the sum, over the edges
    that land on row `n`, of their updates in column `c`. The updates that land on `(n, c)` are the `(e, c)` with `e`
    landing on `n`, so the sum over update indices re-indexes along `e ↦ (e, c)`. -/
theorem rowScatterAdd_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Host.scatterAdd (F := Ideal) (φ := .f32) (rowScatter N E C wf) x idx upd (ix2 n c)
      = x (ix2 n c) + ∑ e ∈ Finset.univ.filter (fun e : Fin E => Lands idx e n), upd (ix2 e c) := by
  unfold Host.scatterAdd
  rw [Ideal.hostScatterAdd_def]
  unfold Ideal.hostScatterAdd
  congr 1
  symm
  refine Finset.sum_bij (fun e _ => ix2 e c) ?_ ?_ ?_ ?_
  · intro e he
    rw [Finset.mem_filter] at he ⊢
    exact ⟨Finset.mem_univ _, (rowScatter_resultIdx wf idx e c n c).mpr ⟨he.2, rfl⟩⟩
  · intro e1 _ e2 _ h
    exact congrFun h 0
  · intro j hj
    rw [Finset.mem_filter] at hj
    obtain ⟨e, c0, rfl⟩ : ∃ e c0, j = ix2 e c0 := ⟨j 0, j 1, eq_ix2 j⟩
    obtain ⟨hl, rfl⟩ := (rowScatter_resultIdx wf idx e c0 n c).mp hj.2
    exact ⟨e, Finset.mem_filter.mpr ⟨Finset.mem_univ _, hl⟩, rfl⟩
  · intro e _
    rfl

end Cert.RowOps

end
-- ==== Proof.LibRealSums.lean ====
import Mathlib.Data.EReal.Basic
import Mathlib.Data.EReal.Operations
import Mathlib.Data.EReal.Inv
import Idealize.ShloMosaic.PureOps.Ideal

/-!
# Real-valued extended reals and sums

On the extended reals, multiplication does not distribute over addition at the
infinities (`⊤ + ⊥ = ⊥`), so `(∑ a) * w = ∑ (a * w)` is only a law where every value is
the image of a real number. This file carries the predicate "is a real", its closure
under the arithmetic a small network uses, and the distributive law under it.
-/

open scoped BigOperators

namespace Cert.RealVal

/-- An extended real is *real* when it is the image of some real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real extended real is not `⊤`. -/
theorem IsReal.ne_top {x : EReal} (hx : IsReal x) : x ≠ ⊤ := by
  obtain ⟨r, rfl⟩ := hx; exact EReal.coe_ne_top r

/-- A real extended real is not `⊥`. -/
theorem IsReal.ne_bot {x : EReal} (hx : IsReal x) : x ≠ ⊥ := by
  obtain ⟨r, rfl⟩ := hx; exact EReal.coe_ne_bot r

/-- Being real is exactly being neither infinity. -/
theorem isReal_iff {x : EReal} : IsReal x ↔ x ≠ ⊥ ∧ x ≠ ⊤ := by
  constructor
  · intro h; exact ⟨h.ne_bot, h.ne_top⟩
  · rintro ⟨hb, ht⟩
    exact ⟨x.toReal, (EReal.coe_toReal ht hb).symm⟩

/-- The sum of two reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The product of two reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The maximum of two reals is real. -/
theorem IsReal.max {x y : EReal} (hx : IsReal x) (hy : IsReal y) : IsReal (max x y) := by
  rcases max_choice x y with h | h <;> rw [h] <;> assumption

/-- The negation of a real is real. -/
theorem IsReal.neg {x : EReal} (hx : IsReal x) : IsReal (-x) := by
  obtain ⟨a, rfl⟩ := hx
  exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The minimum of two reals is real. -/
theorem IsReal.min {x y : EReal} (hx : IsReal x) (hy : IsReal y) : IsReal (min x y) := by
  rcases min_choice x y with h | h <;> rw [h] <;> assumption

/-- The coercion `ℝ → EReal` commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih (fun i hi => h i (Finset.mem_insert_of_mem hi)))

/-- Right-multiplication distributes over a finite sum of reals. -/
theorem sum_mul_of_isReal {ι : Type*} (s : Finset ι) (f : ι → EReal) (c : EReal)
    (hf : ∀ i ∈ s, IsReal (f i)) (hc : IsReal c) :
    (∑ i ∈ s, f i) * c = ∑ i ∈ s, f i * c := by
  classical
  obtain ⟨c', rfl⟩ := hc
  induction s using Finset.induction_on with
  | empty => simp
  | insert a s ha ih =>
    have hs : ∀ i ∈ s, IsReal (f i) := fun i hi => hf i (Finset.mem_insert_of_mem hi)
    obtain ⟨x, hx⟩ := hf a (Finset.mem_insert_self a s)
    obtain ⟨y, hy⟩ := IsReal.sum s f hs
    rw [Finset.sum_insert ha, Finset.sum_insert ha, ← ih hs, hx, hy]
    rw [← EReal.coe_add, ← EReal.coe_mul, ← EReal.coe_mul, ← EReal.coe_mul, ← EReal.coe_add,
      add_mul]

/-- Left-multiplication distributes over a finite sum of reals. -/
theorem mul_sum_of_isReal {ι : Type*} (s : Finset ι) (f : ι → EReal) (c : EReal)
    (hf : ∀ i ∈ s, IsReal (f i)) (hc : IsReal c) :
    c * (∑ i ∈ s, f i) = ∑ i ∈ s, c * f i := by
  rw [mul_comm, sum_mul_of_isReal s f c hf hc]
  exact Finset.sum_congr rfl (fun i _ => mul_comm _ _)

/-- THE LAW. Scaling a sum over edges of row-times-weights products equals the
    row-times-weights product of the scaled edge sums, when every value is real:
    `(∑ₑ ∑ₖ h e k * w k) * d = ∑ₖ ((∑ₑ h e k) * d) * w k`. -/
theorem sum_scale_mul {ι κ : Type*} [Fintype κ] (S : Finset ι) (h : ι → κ → EReal)
    (w : κ → EReal) (d : EReal)
    (hh : ∀ e k, IsReal (h e k)) (hw : ∀ k, IsReal (w k)) (hd : IsReal d) :
    (∑ e ∈ S, ∑ k, h e k * w k) * d = ∑ k, ((∑ e ∈ S, h e k) * d) * w k := by
  choose hr hhr using hh
  choose wr hwr using hw
  obtain ⟨dr, rfl⟩ := hd
  have hL : (∑ e ∈ S, ∑ k, h e k * w k) * (dr : EReal)
      = (((∑ e ∈ S, ∑ k, hr e k * wr k) * dr : ℝ) : EReal) := by
    rw [EReal.coe_mul, ← coe_sum]
    congr 1
    refine Finset.sum_congr rfl (fun e _ => ?_)
    rw [← coe_sum]
    refine Finset.sum_congr rfl (fun k _ => ?_)
    rw [hhr, hwr, EReal.coe_mul]
  have hR : (∑ k, ((∑ e ∈ S, h e k) * (dr : EReal)) * w k)
      = ((∑ k, ((∑ e ∈ S, hr e k) * dr) * wr k : ℝ) : EReal) := by
    rw [← coe_sum]
    refine Finset.sum_congr rfl (fun k _ => ?_)
    rw [EReal.coe_mul, EReal.coe_mul, ← coe_sum, hwr]
    congr 2
    exact Finset.sum_congr rfl (fun e _ => hhr e k)
  rw [hL, hR]
  congr 1
  rw [Finset.sum_comm, Finset.sum_mul]
  refine Finset.sum_congr rfl (fun k _ => ?_)
  rw [← Finset.sum_mul]
  ring

/-- The coercion `ℝ → EReal` commutes with `max`. -/
theorem coe_max (a b : ℝ) : ((max a b : ℝ) : EReal) = max (a : EReal) (b : EReal) :=
  EReal.coe_strictMono.monotone.map_max

/-- The reciprocal `1 / max x 1` of a real `x` is real: `max x 1` is a real `≥ 1`, so nonzero. -/
theorem isReal_recip_max_one {x : EReal} (hx : IsReal x) :
    IsReal (Idealize.ShloMosaic.Ideal.div 1 (max x 1)) := by
  obtain ⟨r, rfl⟩ := hx
  have hm : max (r : EReal) 1 = ((max r 1 : ℝ) : EReal) := by
    rw [← EReal.coe_one, ← coe_max]
  have hne : (max r 1 : ℝ) ≠ 0 := by
    have : (1 : ℝ) ≤ max r 1 := le_max_right r 1
    linarith
  rw [hm, Idealize.ShloMosaic.Ideal.div_coe hne, one_mul]
  exact isReal_coe _

/-- The same reciprocal, computed: `1 / max r 1` at a real `r` is the image of the real
    `1 / max r 1`. -/
theorem recip_max_one_coe (r : ℝ) :
    Idealize.ShloMosaic.Ideal.div 1 (max (r : EReal) 1) = ((1 / max r 1 : ℝ) : EReal) := by
  have hm : max (r : EReal) 1 = ((max r 1 : ℝ) : EReal) := by
    rw [← EReal.coe_one, ← coe_max]
  have hne : (max r 1 : ℝ) ≠ 0 := by
    have : (1 : ℝ) ≤ max r 1 := le_max_right r 1
    linarith
  rw [hm, Idealize.ShloMosaic.Ideal.div_coe hne, one_mul]

/-- The `f32` pattern `0x3F800000` denotes the real number one. -/
theorem ofBits_one_f32 : Idealize.ShloMosaic.Ideal.ofBits .f32 0x3F800000#32 = (1 : EReal) := by
  simp [Idealize.ShloMosaic.Ideal.ofBits, Idealize.ShloMosaic.Ideal.ieee, -EReal.coe_mul]; norm_num

end Cert.RealVal
-- ==== Proof.Layers.lean ====
/-
  The three-layer mean-aggregation graph network as plain mathematics on the extended reals, over abstract edge
  data: `E n` is the finite set of edges whose messages land on node `n`, `row e` the node edge `e` reads, and
  `dinv n` the reciprocal of node `n`'s (clipped) in-degree.

  * `aggAt`: the mean aggregate  (0 + Σ_{e ∈ E n} h[row e, c]) · dinv n.
  * `hidAt`: a hidden layer  max(Σ_k a[n,k]·wl[k,j] + Σ_k h[n,k]·wr[k,j] + b j, 0).
  * The last layer is written in two arrangements. One projects the hidden features by the left weights FIRST and
    aggregates the 64-wide projection; the other aggregates the 128-wide hidden features and projects afterwards.
    They agree because aggregation is linear — but moving a product through a sum is only valid on the extended
    reals where every value is a real number (+∞ + −∞ is −∞ there), so the law is proved for real-valued features,
    weights and degrees, and real-valuedness is carried through the hidden layers.
-/
import proofs.«100264_j44272522887304_2_alg».proof.Proof.LibRealSums
import Idealize.ShloMosaic.Lib.ValueIdx
import Idealize.ShloMosaic.PureOps.Ideal
import Idealize.ShloMosaic.PureOps.Ideal.Laws

noncomputable section

namespace Cert.Net

open Idealize.ShloMosaic Idealize.ShloMosaic.ValueIdx Cert.RealVal

variable (E : Fin 100000 → Finset (Fin 1600000)) (row : Fin 1600000 → Fin 100000) (dinv : Fin 100000 → EReal)

/-- The mean aggregate at node `n`, channel `c`: the messages of the edges landing on `n`, summed from zero and
    scaled by the inverse degree. -/
def aggAt {C : Nat} (h : (⟨2, ![100000, C]⟩ : Shape).Idx → EReal) (n : Fin 100000) (c : Fin C) : EReal :=
  (Ideal.ofBits .f32 0x00000000#32 + ∑ e ∈ E n, h (ix2 (row e) c)) * dinv n

/-- The aggregate as a whole array. -/
def aggG {C : Nat} (h : (⟨2, ![100000, C]⟩ : Shape).Idx → EReal) : (⟨2, ![100000, C]⟩ : Shape).Idx → EReal :=
  fun i => aggAt E row dinv h ⟨(i 0).val, idx2_lt0 i⟩ ⟨(i 1).val, idx2_lt1 i⟩

theorem aggG_ix2 {C : Nat} (h : (⟨2, ![100000, C]⟩ : Shape).Idx → EReal) (n : Fin 100000) (c : Fin C) :
    aggG E row dinv h (ix2 n c) = aggAt E row dinv h n c := rfl

/-- A hidden layer at node `n`, channel `j`. -/
def hidAt (a h : (⟨2, ![100000, 128]⟩ : Shape).Idx → EReal) (wl wr : (⟨2, ![128, 128]⟩ : Shape).Idx → EReal)
    (b : Fin 128 → EReal) (n : Fin 100000) (j : Fin 128) : EReal :=
  max (((∑ k : Fin 128, a (ix2 n k) * wl (ix2 k j)) + ∑ k : Fin 128, h (ix2 n k) * wr (ix2 k j)) + b j)
    (Ideal.ofBits .f32 0x00000000#32)

/-- A hidden layer as a whole array. -/
def hidG (a h : (⟨2, ![100000, 128]⟩ : Shape).Idx → EReal) (wl wr : (⟨2, ![128, 128]⟩ : Shape).Idx → EReal)
    (b : Fin 128 → EReal) : (⟨2, ![100000, 128]⟩ : Shape).Idx → EReal :=
  fun i => hidAt a h wl wr b ⟨(i 0).val, idx2_lt0 i⟩ ⟨(i 1).val, idx2_lt1 i⟩

theorem hidG_ix2 (a h : (⟨2, ![100000, 128]⟩ : Shape).Idx → EReal) (wl wr : (⟨2, ![128, 128]⟩ : Shape).Idx → EReal)
    (b : Fin 128 → EReal) (n : Fin 100000) (j : Fin 128) : hidG a h wl wr b (ix2 n j) = hidAt a h wl wr b n j := rfl

/-- The projection of the hidden features by the last layer's left weights, as a whole 64-wide array. -/
def projG (h : (⟨2, ![100000, 128]⟩ : Shape).Idx → EReal) (wl : (⟨2, ![128, 64]⟩ : Shape).Idx → EReal) :
    (⟨2, ![100000, 64]⟩ : Shape).Idx → EReal :=
  fun i => ∑ k : Fin 128, h (ix2 ⟨(i 0).val, idx2_lt0 i⟩ k) * wl (ix2 k ⟨(i 1).val, idx2_lt1 i⟩)

theorem projG_ix2 (h : (⟨2, ![100000, 128]⟩ : Shape).Idx → EReal) (wl : (⟨2, ![128, 64]⟩ : Shape).Idx → EReal)
    (n : Fin 100000) (j : Fin 64) : projG h wl (ix2 n j) = ∑ k : Fin 128, h (ix2 n k) * wl (ix2 k j) := rfl

/-- The last layer, projecting first: the aggregate of the projection, plus the right product, plus the bias. -/
def outProjFirst (h : (⟨2, ![100000, 128]⟩ : Shape).Idx → EReal) (wl wr : (⟨2, ![128, 64]⟩ : Shape).Idx → EReal)
    (b : Fin 64 → EReal) (n : Fin 100000) (j : Fin 64) : EReal :=
  (aggAt E row dinv (projG h wl) n j + ∑ k : Fin 128, h (ix2 n k) * wr (ix2 k j)) + b j

/-- The last layer, aggregating first: the aggregate times the left weights, plus the bias, plus the right product. -/
def outAggFirst (h : (⟨2, ![100000, 128]⟩ : Shape).Idx → EReal) (wl wr : (⟨2, ![128, 64]⟩ : Shape).Idx → EReal)
    (b : Fin 64 → EReal) (n : Fin 100000) (j : Fin 64) : EReal :=
  ((∑ k : Fin 128, aggAt E row dinv h n k * wl (ix2 k j)) + b j) + ∑ k : Fin 128, h (ix2 n k) * wr (ix2 k j)

theorem zeroW : Ideal.ofBits .f32 0x00000000#32 = (0 : EReal) := Ideal.ofBits_zero_f32

/-- The aggregate of real features at real degrees is real. -/
theorem isReal_aggAt {C : Nat} (h : (⟨2, ![100000, C]⟩ : Shape).Idx → EReal) (hh : ∀ i, IsReal (h i))
    (hd : ∀ n, IsReal (dinv n)) (n : Fin 100000) (c : Fin C) : IsReal (aggAt E row dinv h n c) := by
  unfold aggAt
  rw [zeroW]
  exact (isReal_zero.add (IsReal.sum _ _ fun e _ => hh _)).mul (hd n)

theorem isReal_aggG {C : Nat} (h : (⟨2, ![100000, C]⟩ : Shape).Idx → EReal) (hh : ∀ i, IsReal (h i))
    (hd : ∀ n, IsReal (dinv n)) (i : (⟨2, ![100000, C]⟩ : Shape).Idx) : IsReal (aggG E row dinv h i) :=
  isReal_aggAt E row dinv h hh hd _ _

/-- A hidden layer of real inputs is real. -/
theorem isReal_hidG (a h : (⟨2, ![100000, 128]⟩ : Shape).Idx → EReal) (wl wr : (⟨2, ![128, 128]⟩ : Shape).Idx → EReal)
    (b : Fin 128 → EReal) (ha : ∀ i, IsReal (a i)) (hh : ∀ i, IsReal (h i)) (hwl : ∀ i, IsReal (wl i))
    (hwr : ∀ i, IsReal (wr i)) (hb : ∀ j, IsReal (b j)) (i : (⟨2, ![100000, 128]⟩ : Shape).Idx) :
    IsReal (hidG a h wl wr b i) := by
  unfold hidG hidAt
  rw [zeroW]
  exact ((((IsReal.sum _ _ fun k _ => (ha _).mul (hwl _)).add (IsReal.sum _ _ fun k _ => (hh _).mul (hwr _))).add (hb _))).max isReal_zero

/-- THE LAW: on real features, weights and degrees, projecting before aggregating is aggregating before
    projecting. -/
theorem out_eq (h : (⟨2, ![100000, 128]⟩ : Shape).Idx → EReal) (wl wr : (⟨2, ![128, 64]⟩ : Shape).Idx → EReal)
    (b : Fin 64 → EReal) (hh : ∀ i, IsReal (h i)) (hwl : ∀ i, IsReal (wl i)) (hd : ∀ n, IsReal (dinv n))
    (n : Fin 100000) (j : Fin 64) :
    outProjFirst E row dinv h wl wr b n j = outAggFirst E row dinv h wl wr b n j := by
  unfold outProjFirst outAggFirst
  have key : aggAt E row dinv (projG h wl) n j = ∑ k : Fin 128, aggAt E row dinv h n k * wl (ix2 k j) := by
    unfold aggAt
    simp only [zeroW, zero_add, projG_ix2]
    exact sum_scale_mul (E n) (fun e k => h (ix2 (row e) k)) (fun k => wl (ix2 k j)) (dinv n)
      (fun e k => hh _) (fun k => hwl _) (hd n)
  rw [key]
  exact add_right_comm _ _ _

end Cert.Net

end
-- ==== Proof.EdgeData.lean ====
/-
  The graph's edge data, read off the edge-index argument once, for both programs: the set of edges whose message
  lands on a node (the edge's target index, read as a signed integer, is that node; an edge whose target is outside
  the node range lands nowhere), the node an edge reads (its source index, negative values wrapped by the node count,
  then clamped into the node range), and the reciprocal of a node's in-degree clipped below at one.
-/
import proofs.«100264_j44272522887304_2_alg».proof.Proof.Gen.ReferenceIdeal.Read
import proofs.«100264_j44272522887304_2_alg».proof.Proof.LibRowGather
import proofs.«100264_j44272522887304_2_alg».proof.Proof.Layers

noncomputable section

namespace Cert.EdgeData

open Cert.ReferenceIdeal Cert.ReferenceIdeal.Read Idealize.ShloMosaic Idealize.ShloMosaic.ValueIdx

/-- The edges landing on node `n`. -/
def edges (x2 : (⟨2, ![2, 1600000]⟩ : Shape).Idx → BitVec 32) (n : Fin 100000) : Finset (Fin 1600000) :=
  Finset.univ.filter (fun e => Cert.RowOps.Lands (N := 100000) (val_main_v20 (F := Ideal) x2) e n)

/-- The node edge `e` reads. -/
def rowOf (x2 : (⟨2, ![2, 1600000]⟩ : Shape).Idx → BitVec 32) (e : Fin 1600000) : Fin 100000 :=
  Cert.RowOps.srcRow (N := 100000) (by decide) (val_main_v17 (F := Ideal) x2) e

/-- The inverse clipped in-degree of node `n`. -/
def dinv (x2 : (⟨2, ![2, 1600000]⟩ : Shape).Idx → BitVec 32) (n : Fin 100000) : EReal :=
  val_main_v11 (F := Ideal) x2 (ix1 n)

/-- The first hidden features: the hidden layer of the input features and their mean aggregate. -/
def H1 (x0 : (⟨2, ![100000, 128]⟩ : Shape).Idx → EReal) (x2 : (⟨2, ![2, 1600000]⟩ : Shape).Idx → BitVec 32)
    (x3 : (⟨2, ![128, 128]⟩ : Shape).Idx → EReal) (x4 : (⟨1, ![128]⟩ : Shape).Idx → EReal)
    (x5 : (⟨2, ![128, 128]⟩ : Shape).Idx → EReal) : (⟨2, ![100000, 128]⟩ : Shape).Idx → EReal :=
  Cert.Net.hidG (Cert.Net.aggG (edges x2) (rowOf x2) (dinv x2) x0) x0 (val_main_v25 (F := Ideal) x3)
    (val_main_v30 (F := Ideal) x5) (fun j => x4 (ix1 j))

/-- The second hidden features: the hidden layer of the first hidden features and their mean aggregate. -/
def H2 (x0 : (⟨2, ![100000, 128]⟩ : Shape).Idx → EReal) (x2 : (⟨2, ![2, 1600000]⟩ : Shape).Idx → BitVec 32)
    (x3 : (⟨2, ![128, 128]⟩ : Shape).Idx → EReal) (x4 : (⟨1, ![128]⟩ : Shape).Idx → EReal)
    (x5 x6 : (⟨2, ![128, 128]⟩ : Shape).Idx → EReal) (x7 : (⟨1, ![128]⟩ : Shape).Idx → EReal)
    (x8 : (⟨2, ![128, 128]⟩ : Shape).Idx → EReal) : (⟨2, ![100000, 128]⟩ : Shape).Idx → EReal :=
  Cert.Net.hidG (Cert.Net.aggG (edges x2) (rowOf x2) (dinv x2) (H1 x0 x2 x3 x4 x5)) (H1 x0 x2 x3 x4 x5)
    (val_main_v47 (F := Ideal) x6) (val_main_v52 (F := Ideal) x8) (fun j => x7 (ix1 j))

end Cert.EdgeData

end
-- ==== Proof.KAgg.lean ====
/-
  The edge stage as the kernel's program spells it, read at an index: rows gathered by source node, widened, added
  into zeros at their target rows, and scaled by the inverse-degree column. At node n, channel c this is
  (0 + Σ over the edges landing on n of h[source row, c]) · dinv n — the mean aggregate of the network.
-/
import proofs.«100264_j44272522887304_2_alg».proof.Proof.Gen.KernelIdeal
import proofs.«100264_j44272522887304_2_alg».proof.Proof.EdgeData
import proofs.«100264_j44272522887304_2_alg».proof.Proof.Layers
import proofs.«100264_j44272522887304_2_alg».proof.Proof.LibRowGather
import Idealize.ShloMosaic.Lib.Pipeline.Value
import Idealize.ShloMosaic.Lib.ValueIdx

noncomputable section

namespace Cert.KernelIdeal.KAgg

open Cert.KernelIdeal Cert.KernelIdeal.Gen Idealize.ShloMosaic Idealize.ShloMosaic.ValueIdx Cert.EdgeData

/-- The 128-wide edge stage is the mean aggregate. -/
theorem agg_wide (x2 : (⟨2, ![2, 1600000]⟩ : Shape).Idx → BitVec 32) (z : S100000x128.Idx → EReal)
    (dstI srcI : IVec S1600000x1 32) (h : S100000x128.Idx → EReal) (dcol : S100000x1.Idx → EReal)
    (hz : ∀ i, z i = Ideal.ofBits .f32 0x00000000#32)
    (hd : dstI = Cert.ReferenceIdeal.Read.val_main_v20 (F := Ideal) x2)
    (hs : srcI = Cert.ReferenceIdeal.Read.val_main_v17 (F := Ideal) x2)
    (hc : ∀ n : Fin 100000, dcol (ix2 n (0 : Fin 1)) = dinv x2 n) :
    mulf (Host.scatterAdd (F := Ideal) scatter_S100000x128_S1600000x1_S1600000x128_1_0_0_1 z dstI
        (extf .f32 (Host.gather gather_S100000x128_S1600000x1_S1600000x128_1_0_n_n_0_1_1128 h srcI) bitsLt_bf16_f32))
      (broadcastInDim S100000x128 ![0, 1] bcast_S100000x1_S100000x128_0_1 dcol)
    = Cert.Net.aggG (edges x2) (rowOf x2) (dinv x2) h := by
  subst hd hs
  funext i
  obtain ⟨n, c, rfl⟩ : ∃ (n : Fin 100000) (c : Fin 128), i = ix2 n c := ⟨i 0, i 1, eq_ix2 i⟩
  rw [Cert.Net.aggG_ix2]
  unfold Cert.Net.aggAt
  refine (mulf_apply _ _ _).trans ?_
  refine congrArg₂ (· * ·) ?_ ?_
  · refine (Cert.RowOps.rowScatterAdd_apply (N := 100000) (E := 1600000) (C := 128)
      scatter_S100000x128_S1600000x1_S1600000x128_1_0_0_1_wf z _ _ n c).trans ?_
    rw [hz]
    refine congrArg₂ (· + ·) rfl ?_
    exact Finset.sum_congr rfl fun e _ =>
      Cert.RowOps.rowGather_apply (N := 100000) (E := 1600000) (C := 128) (by decide)
        gather_S100000x128_S1600000x1_S1600000x128_1_0_n_n_0_1_1128_wf h _ e c
  · exact (broadcastInDim_apply _ bcast_S100000x1_S100000x128_0_1 dcol (ix2 n c) (ix2 n (0 : Fin 1)) (fun a => match a with
      | ⟨0, _⟩ => by show n.val = if (100000 : Nat) = 1 then 0 else n.val; rw [if_neg (by decide)]
      | ⟨1, _⟩ => by show 0 = if (1 : Nat) = 1 then 0 else c.val; rw [if_pos rfl])).trans (hc n)

/-- The 64-wide edge stage (on the projected features) is the mean aggregate. -/
theorem agg_narrow (x2 : (⟨2, ![2, 1600000]⟩ : Shape).Idx → BitVec 32) (z : S100000x64.Idx → EReal)
    (dstI srcI : IVec S1600000x1 32) (h : S100000x64.Idx → EReal) (dcol : S100000x1.Idx → EReal)
    (hz : ∀ i, z i = Ideal.ofBits .f32 0x00000000#32)
    (hd : dstI = Cert.ReferenceIdeal.Read.val_main_v20 (F := Ideal) x2)
    (hs : srcI = Cert.ReferenceIdeal.Read.val_main_v17 (F := Ideal) x2)
    (hc : ∀ n : Fin 100000, dcol (ix2 n (0 : Fin 1)) = dinv x2 n) :
    mulf (Host.scatterAdd (F := Ideal) scatter_S100000x64_S1600000x1_S1600000x64_1_0_0_1 z dstI
        (extf .f32 (Host.gather gather_S100000x64_S1600000x1_S1600000x64_1_0_n_n_0_1_164 h srcI) bitsLt_bf16_f32))
      (broadcastInDim S100000x64 ![0, 1] bcast_S100000x1_S100000x64_0_1 dcol)
    = Cert.Net.aggG (edges x2) (rowOf x2) (dinv x2) h := by
  subst hd hs
  funext i
  obtain ⟨n, c, rfl⟩ : ∃ (n : Fin 100000) (c : Fin 64), i = ix2 n c := ⟨i 0, i 1, eq_ix2 i⟩
  rw [Cert.Net.aggG_ix2]
  unfold Cert.Net.aggAt
  refine (mulf_apply _ _ _).trans ?_
  refine congrArg₂ (· * ·) ?_ ?_
  · refine (Cert.RowOps.rowScatterAdd_apply (N := 100000) (E := 1600000) (C := 64)
      scatter_S100000x64_S1600000x1_S1600000x64_1_0_0_1_wf z _ _ n c).trans ?_
    rw [hz]
    refine congrArg₂ (· + ·) rfl ?_
    exact Finset.sum_congr rfl fun e _ =>
      Cert.RowOps.rowGather_apply (N := 100000) (E := 1600000) (C := 64) (by decide)
        gather_S100000x64_S1600000x1_S1600000x64_1_0_n_n_0_1_164_wf h _ e c
  · exact (broadcastInDim_apply _ bcast_S100000x1_S100000x64_0_1 dcol (ix2 n c) (ix2 n (0 : Fin 1)) (fun a => match a with
      | ⟨0, _⟩ => by show n.val = if (100000 : Nat) = 1 then 0 else n.val; rw [if_neg (by decide)]
      | ⟨1, _⟩ => by show 0 = if (1 : Nat) = 1 then 0 else c.val; rw [if_pos rfl])).trans (hc n)

/-- The inverse degrees reshaped to a column read, at row n, the inverse degree of node n. -/
theorem col_apply (v : S100000.Idx → EReal) (n : Fin 100000) :
    shapeCast S100000x1 v shapeCasts_S100000_S100000x1 (ix2 n (0 : Fin 1)) = v (ix1 n) :=
  shapeCast_apply v shapeCasts_S100000_S100000x1 _ _ (by
    rw [Shape.rowMajor_val_two, Shape.rowMajor_val_one]
    show n.val = n.val * 1 + 0
    omega)

end Cert.KernelIdeal.KAgg

end
-- ==== Proof.KNet.lean ====
/-
  The idealized kernel's result as the network in its "project first" arrangement. The buffer contents are followed
  through the program's six segments: the first stretch of host operations computes the edge data and the aggregate
  of the input features; the first region the first hidden features; the second stretch their aggregate; the second
  region the second hidden features and their projection by the last layer's left weights; the third stretch the
  aggregate of that 64-wide projection; the last region the result. Buffers written early and read late (the source
  and target indices, the inverse-degree column, the arguments) are carried unchanged across the segments that do
  not write them.
-/
import proofs.«100264_j44272522887304_2_alg».proof.Proof.KRun
import proofs.«100264_j44272522887304_2_alg».proof.Proof.KReg0
import proofs.«100264_j44272522887304_2_alg».proof.Proof.KReg1
import proofs.«100264_j44272522887304_2_alg».proof.Proof.KReg2
import proofs.«100264_j44272522887304_2_alg».proof.Proof.KAgg
import proofs.«100264_j44272522887304_2_alg».proof.Proof.EdgeData
import proofs.«100264_j44272522887304_2_alg».proof.Proof.Layers
import Idealize.ShloMosaic.Lib.ValueLayout
import Idealize.ShloMosaic.Lib.StableHlo.Run

set_option maxRecDepth 16384

noncomputable section

namespace Cert.KernelIdeal.KNet

open Cert.KernelIdeal Cert.KernelIdeal.Gen
open Idealize.ShloMosaic Idealize.ShloMosaic.TcCoe Idealize.ShloMosaic.ValueIdx Idealize.ShloMosaic.StableHlo
open Idealize.SL.Sem Cert.EdgeData

variable (m : (ℓ : Loc nD τ sig) → Buf (Elt Ideal) ℓ) (ρ : Dev nD → PrngReg) (c : Dev nD)

/-! ## After the first stretch of host operations -/

theorem w1_v1 : W1 m ρ c (Proc.devRef .tc main_v1) = Cert.ReferenceIdeal.Read.val_main_v1 (F := Ideal) (m ((c.tc : Thread nD τ).loc main_arg2)) := by
  show StableHlo.after hostOps0 (W0 m ρ c) (Proc.devRef .tc main_v1) = _
  after_results_simp
  rfl

theorem w1_v3 : W1 m ρ c (Proc.devRef .tc main_v3) = Cert.ReferenceIdeal.Read.val_main_v3 (F := Ideal) (m ((c.tc : Thread nD τ).loc main_arg2)) := by
  show StableHlo.after hostOps0 (W0 m ρ c) (Proc.devRef .tc main_v3) = _
  after_results_simp
  rfl

theorem w1_v12 : W1 m ρ c (Proc.devRef .tc main_v12) = shapeCast S100000x1 (Cert.ReferenceIdeal.Read.val_main_v11 (F := Ideal) (m ((c.tc : Thread nD τ).loc main_arg2))) shapeCasts_S100000_S100000x1 := by
  show StableHlo.after hostOps0 (W0 m ρ c) (Proc.devRef .tc main_v12) = _
  after_results_simp
  rfl

theorem w1_arg6 : W1 m ρ c (Proc.devRef .tc main_arg6) = (m ((c.tc : Thread nD τ).loc main_arg6)) := by
  show StableHlo.after hostOps0 (W0 m ρ c) (Proc.devRef .tc main_arg6) = _
  after_results_simp

theorem w1_arg7 : W1 m ρ c (Proc.devRef .tc main_arg7) = (m ((c.tc : Thread nD τ).loc main_arg7)) := by
  show StableHlo.after hostOps0 (W0 m ρ c) (Proc.devRef .tc main_arg7) = _
  after_results_simp

theorem w1_arg8 : W1 m ρ c (Proc.devRef .tc main_arg8) = (m ((c.tc : Thread nD τ).loc main_arg8)) := by
  show StableHlo.after hostOps0 (W0 m ρ c) (Proc.devRef .tc main_arg8) = _
  after_results_simp

theorem w1_arg9 : W1 m ρ c (Proc.devRef .tc main_arg9) = (m ((c.tc : Thread nD τ).loc main_arg9)) := by
  show StableHlo.after hostOps0 (W0 m ρ c) (Proc.devRef .tc main_arg9) = _
  after_results_simp

theorem w1_arg10 : W1 m ρ c (Proc.devRef .tc main_arg10) = (m ((c.tc : Thread nD τ).loc main_arg10)) := by
  show StableHlo.after hostOps0 (W0 m ρ c) (Proc.devRef .tc main_arg10) = _
  after_results_simp

theorem w1_arg11 : W1 m ρ c (Proc.devRef .tc main_arg11) = (m ((c.tc : Thread nD τ).loc main_arg11)) := by
  show StableHlo.after hostOps0 (W0 m ρ c) (Proc.devRef .tc main_arg11) = _
  after_results_simp

theorem w1_v13 : W1 m ρ c (Proc.devRef .tc main_v13) = (m ((c.tc : Thread nD τ).loc main_arg0)) := by
  show StableHlo.after hostOps0 (W0 m ρ c) (Proc.devRef .tc main_v13) = _
  after_results_simp
  rfl

theorem w1_v27 : W1 m ρ c (Proc.devRef .tc main_v27) = Cert.ReferenceIdeal.Read.val_main_v25 (F := Ideal) (m ((c.tc : Thread nD τ).loc main_arg3)) := by
  show StableHlo.after hostOps0 (W0 m ρ c) (Proc.devRef .tc main_v27) = _
  after_results_simp
  rfl

theorem w1_v28 : W1 m ρ c (Proc.devRef .tc main_v28) = Cert.ReferenceIdeal.Read.val_main_v30 (F := Ideal) (m ((c.tc : Thread nD τ).loc main_arg5)) := by
  show StableHlo.after hostOps0 (W0 m ρ c) (Proc.devRef .tc main_v28) = _
  after_results_simp
  rfl

theorem w1_v29 : W1 m ρ c (Proc.devRef .tc main_v29) = shapeCast S1x128 (m ((c.tc : Thread nD τ).loc main_arg4)) shapeCasts_S128_S1x128 := by
  show StableHlo.after hostOps0 (W0 m ρ c) (Proc.devRef .tc main_v29) = _
  after_results_simp
  rfl

/-- The aggregate of the input features. -/
theorem w1_v26 : W1 m ρ c (Proc.devRef .tc main_v26) = Cert.Net.aggG (edges (m ((c.tc : Thread nD τ).loc main_arg2))) (rowOf (m ((c.tc : Thread nD τ).loc main_arg2))) (dinv (m ((c.tc : Thread nD τ).loc main_arg2))) (m ((c.tc : Thread nD τ).loc main_arg0)) := by
  show StableHlo.after hostOps0 (W0 m ρ c) (Proc.devRef .tc main_v26) = _
  after_results_simp
  exact KAgg.agg_wide (m ((c.tc : Thread nD τ).loc main_arg2)) _ _ _ _ _ (fun _ => rfl) rfl rfl (fun n => KAgg.col_apply _ n)

/-! ## Carried across the later segments -/

theorem w2_v1 : W2 m ρ c (Proc.devRef .tc main_v1) = Cert.ReferenceIdeal.Read.val_main_v1 (F := Ideal) (m ((c.tc : Thread nD τ).loc main_arg2)) := (W2_of_ne m ρ c main_v1 (by decide)).trans (w1_v1 m ρ c)

theorem w3_v1 : W3 m ρ c (Proc.devRef .tc main_v1) = Cert.ReferenceIdeal.Read.val_main_v1 (F := Ideal) (m ((c.tc : Thread nD τ).loc main_arg2)) := by
  show StableHlo.after hostOps1 (W2 m ρ c) (Proc.devRef .tc main_v1) = _
  after_results_simp
  exact w2_v1 m ρ c

theorem w4_v1 : W4 m ρ c (Proc.devRef .tc main_v1) = Cert.ReferenceIdeal.Read.val_main_v1 (F := Ideal) (m ((c.tc : Thread nD τ).loc main_arg2)) := (W4_of_ne m ρ c main_v1 (by decide)).trans (w3_v1 m ρ c)

theorem w2_v3 : W2 m ρ c (Proc.devRef .tc main_v3) = Cert.ReferenceIdeal.Read.val_main_v3 (F := Ideal) (m ((c.tc : Thread nD τ).loc main_arg2)) := (W2_of_ne m ρ c main_v3 (by decide)).trans (w1_v3 m ρ c)

theorem w3_v3 : W3 m ρ c (Proc.devRef .tc main_v3) = Cert.ReferenceIdeal.Read.val_main_v3 (F := Ideal) (m ((c.tc : Thread nD τ).loc main_arg2)) := by
  show StableHlo.after hostOps1 (W2 m ρ c) (Proc.devRef .tc main_v3) = _
  after_results_simp
  exact w2_v3 m ρ c

theorem w4_v3 : W4 m ρ c (Proc.devRef .tc main_v3) = Cert.ReferenceIdeal.Read.val_main_v3 (F := Ideal) (m ((c.tc : Thread nD τ).loc main_arg2)) := (W4_of_ne m ρ c main_v3 (by decide)).trans (w3_v3 m ρ c)

theorem w2_v12 : W2 m ρ c (Proc.devRef .tc main_v12) = shapeCast S100000x1 (Cert.ReferenceIdeal.Read.val_main_v11 (F := Ideal) (m ((c.tc : Thread nD τ).loc main_arg2))) shapeCasts_S100000_S100000x1 := (W2_of_ne m ρ c main_v12 (by decide)).trans (w1_v12 m ρ c)

theorem w3_v12 : W3 m ρ c (Proc.devRef .tc main_v12) = shapeCast S100000x1 (Cert.ReferenceIdeal.Read.val_main_v11 (F := Ideal) (m ((c.tc : Thread nD τ).loc main_arg2))) shapeCasts_S100000_S100000x1 := by
  show StableHlo.after hostOps1 (W2 m ρ c) (Proc.devRef .tc main_v12) = _
  after_results_simp
  exact w2_v12 m ρ c

theorem w4_v12 : W4 m ρ c (Proc.devRef .tc main_v12) = shapeCast S100000x1 (Cert.ReferenceIdeal.Read.val_main_v11 (F := Ideal) (m ((c.tc : Thread nD τ).loc main_arg2))) shapeCasts_S100000_S100000x1 := (W4_of_ne m ρ c main_v12 (by decide)).trans (w3_v12 m ρ c)

theorem w2_arg6 : W2 m ρ c (Proc.devRef .tc main_arg6) = (m ((c.tc : Thread nD τ).loc main_arg6)) := (W2_of_ne m ρ c main_arg6 (by decide)).trans (w1_arg6 m ρ c)

theorem w2_arg7 : W2 m ρ c (Proc.devRef .tc main_arg7) = (m ((c.tc : Thread nD τ).loc main_arg7)) := (W2_of_ne m ρ c main_arg7 (by decide)).trans (w1_arg7 m ρ c)

theorem w2_arg8 : W2 m ρ c (Proc.devRef .tc main_arg8) = (m ((c.tc : Thread nD τ).loc main_arg8)) := (W2_of_ne m ρ c main_arg8 (by decide)).trans (w1_arg8 m ρ c)

theorem w2_arg9 : W2 m ρ c (Proc.devRef .tc main_arg9) = (m ((c.tc : Thread nD τ).loc main_arg9)) := (W2_of_ne m ρ c main_arg9 (by decide)).trans (w1_arg9 m ρ c)

theorem w2_arg10 : W2 m ρ c (Proc.devRef .tc main_arg10) = (m ((c.tc : Thread nD τ).loc main_arg10)) := (W2_of_ne m ρ c main_arg10 (by decide)).trans (w1_arg10 m ρ c)

theorem w3_arg10 : W3 m ρ c (Proc.devRef .tc main_arg10) = (m ((c.tc : Thread nD τ).loc main_arg10)) := by
  show StableHlo.after hostOps1 (W2 m ρ c) (Proc.devRef .tc main_arg10) = _
  after_results_simp
  exact w2_arg10 m ρ c

theorem w4_arg10 : W4 m ρ c (Proc.devRef .tc main_arg10) = (m ((c.tc : Thread nD τ).loc main_arg10)) := (W4_of_ne m ρ c main_arg10 (by decide)).trans (w3_arg10 m ρ c)

theorem w2_arg11 : W2 m ρ c (Proc.devRef .tc main_arg11) = (m ((c.tc : Thread nD τ).loc main_arg11)) := (W2_of_ne m ρ c main_arg11 (by decide)).trans (w1_arg11 m ρ c)

theorem w3_arg11 : W3 m ρ c (Proc.devRef .tc main_arg11) = (m ((c.tc : Thread nD τ).loc main_arg11)) := by
  show StableHlo.after hostOps1 (W2 m ρ c) (Proc.devRef .tc main_arg11) = _
  after_results_simp
  exact w2_arg11 m ρ c

theorem w4_arg11 : W4 m ρ c (Proc.devRef .tc main_arg11) = (m ((c.tc : Thread nD τ).loc main_arg11)) := (W4_of_ne m ρ c main_arg11 (by decide)).trans (w3_arg11 m ρ c)

/-- A hidden layer with the bias given as a one-row array reshaped from the bias vector. -/
theorem hid_shape (a h : S100000x128.Idx → EReal) (wl wr : S128x128.Idx → EReal) (b : S128.Idx → EReal) :
    KReg0.hidG a h wl wr (shapeCast S1x128 b shapeCasts_S128_S1x128) = Cert.Net.hidG a h wl wr (fun j => b (ix1 j)) := by
  funext i
  obtain ⟨n, j, rfl⟩ : ∃ (n : Fin 100000) (j : Fin 128), i = ix2 n j := ⟨i 0, i 1, eq_ix2 i⟩
  show KReg0.hidAt a h wl wr _ n j = Cert.Net.hidAt a h wl wr _ n j
  unfold KReg0.hidAt Cert.Net.hidAt
  rw [shapeCast_a_1a_apply b shapeCasts_S128_S1x128 0 j]

/-! ## The first region: the first hidden features -/

theorem w2_v30 : W2 m ρ c (Proc.devRef .tc main_v30) = (H1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) := by
  refine (W2_arr m ρ c 5).trans ((KReg0.final (V1 m ρ) c).trans ?_)
  show KReg0.hidG (W1 m ρ c (Proc.devRef .tc main_v26)) (W1 m ρ c (Proc.devRef .tc main_v13)) (W1 m ρ c (Proc.devRef .tc main_v27))
    (W1 m ρ c (Proc.devRef .tc main_v28)) (W1 m ρ c (Proc.devRef .tc main_v29)) = _
  rw [w1_v26, w1_v13, w1_v27, w1_v28, w1_v29]
  exact hid_shape _ _ _ _ _

/-! ## The second stretch of host operations -/

theorem w3_v43 : W3 m ρ c (Proc.devRef .tc main_v43) = Cert.Net.aggG (edges (m ((c.tc : Thread nD τ).loc main_arg2))) (rowOf (m ((c.tc : Thread nD τ).loc main_arg2))) (dinv (m ((c.tc : Thread nD τ).loc main_arg2))) (H1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) := by
  show StableHlo.after hostOps1 (W2 m ρ c) (Proc.devRef .tc main_v43) = _
  after_results_simp
  rw [w2_v1, w2_v3, w2_v12, w2_v30]
  exact KAgg.agg_wide (m ((c.tc : Thread nD τ).loc main_arg2)) _ _ _ _ _ (fun _ => rfl) rfl rfl (fun n => KAgg.col_apply _ n)

theorem w3_v30 : W3 m ρ c (Proc.devRef .tc main_v30) = (H1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) := by
  show StableHlo.after hostOps1 (W2 m ρ c) (Proc.devRef .tc main_v30) = _
  after_results_simp
  exact w2_v30 m ρ c

theorem w3_v44 : W3 m ρ c (Proc.devRef .tc main_v44) = Cert.ReferenceIdeal.Read.val_main_v47 (F := Ideal) (m ((c.tc : Thread nD τ).loc main_arg6)) := by
  show StableHlo.after hostOps1 (W2 m ρ c) (Proc.devRef .tc main_v44) = _
  after_results_simp
  rw [w2_arg6]
  rfl

theorem w3_v45 : W3 m ρ c (Proc.devRef .tc main_v45) = Cert.ReferenceIdeal.Read.val_main_v52 (F := Ideal) (m ((c.tc : Thread nD τ).loc main_arg8)) := by
  show StableHlo.after hostOps1 (W2 m ρ c) (Proc.devRef .tc main_v45) = _
  after_results_simp
  rw [w2_arg8]
  rfl

theorem w3_v46 : W3 m ρ c (Proc.devRef .tc main_v46) = shapeCast S1x128 (m ((c.tc : Thread nD τ).loc main_arg7)) shapeCasts_S128_S1x128 := by
  show StableHlo.after hostOps1 (W2 m ρ c) (Proc.devRef .tc main_v46) = _
  after_results_simp
  rw [w2_arg7]
  rfl

theorem w3_v47 : W3 m ρ c (Proc.devRef .tc main_v47) = Cert.ReferenceIdeal.Read.val_main_v69 (F := Ideal) (m ((c.tc : Thread nD τ).loc main_arg9)) := by
  show StableHlo.after hostOps1 (W2 m ρ c) (Proc.devRef .tc main_v47) = _
  after_results_simp
  rw [w2_arg9]
  rfl

/-! ## The second region: the second hidden features and their projection -/

theorem hid_shape1 (a h : S100000x128.Idx → EReal) (wl wr : S128x128.Idx → EReal) (b : S128.Idx → EReal) :
    KReg1.hidG a h wl wr (shapeCast S1x128 b shapeCasts_S128_S1x128) = Cert.Net.hidG a h wl wr (fun j => b (ix1 j)) := by
  funext i
  obtain ⟨n, j, rfl⟩ : ∃ (n : Fin 100000) (j : Fin 128), i = ix2 n j := ⟨i 0, i 1, eq_ix2 i⟩
  show KReg1.hidAt a h wl wr _ n j = Cert.Net.hidAt a h wl wr _ n j
  unfold KReg1.hidAt Cert.Net.hidAt
  rw [shapeCast_a_1a_apply b shapeCasts_S128_S1x128 0 j]

theorem proj_shape (a h : S100000x128.Idx → EReal) (wl wr : S128x128.Idx → EReal) (b : S128.Idx → EReal)
    (wl2 : S128x64.Idx → EReal) :
    KReg1.projG a h wl wr (shapeCast S1x128 b shapeCasts_S128_S1x128) wl2
      = Cert.Net.projG (Cert.Net.hidG a h wl wr (fun j => b (ix1 j))) wl2 := by
  funext i
  obtain ⟨n, j, rfl⟩ : ∃ (n : Fin 100000) (j : Fin 64), i = ix2 n j := ⟨i 0, i 1, eq_ix2 i⟩
  show (∑ k : Fin 128, KReg1.hidAt a h wl wr _ n k * wl2 (ix2 k j))
    = ∑ k : Fin 128, Cert.Net.hidG a h wl wr (fun j => b (ix1 j)) (ix2 n k) * wl2 (ix2 k j)
  exact Finset.sum_congr rfl fun k _ =>
    congrArg (· * wl2 (ix2 k j)) (congrFun (hid_shape1 a h wl wr b) (ix2 n k))

theorem w4_v48_0 : W4 m ρ c (Proc.devRef .tc main_v48_0) = (H2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (W4_arr m ρ c 6).trans ((KReg1.final6 (V3 m ρ) c).trans ?_)
  show KReg1.hidG (W3 m ρ c (Proc.devRef .tc main_v43)) (W3 m ρ c (Proc.devRef .tc main_v30)) (W3 m ρ c (Proc.devRef .tc main_v44))
    (W3 m ρ c (Proc.devRef .tc main_v45)) (W3 m ρ c (Proc.devRef .tc main_v46)) = _
  rw [w3_v43, w3_v30, w3_v44, w3_v45, w3_v46]
  exact hid_shape1 _ _ _ _ _

theorem w4_v48_1 : W4 m ρ c (Proc.devRef .tc main_v48_1) = (Cert.Net.projG (H2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.ReferenceIdeal.Read.val_main_v69 (F := Ideal) (m ((c.tc : Thread nD τ).loc main_arg9)))) := by
  refine (W4_arr m ρ c 7).trans ((KReg1.final7 (V3 m ρ) c).trans ?_)
  show KReg1.projG (W3 m ρ c (Proc.devRef .tc main_v43)) (W3 m ρ c (Proc.devRef .tc main_v30)) (W3 m ρ c (Proc.devRef .tc main_v44))
    (W3 m ρ c (Proc.devRef .tc main_v45)) (W3 m ρ c (Proc.devRef .tc main_v46)) (W3 m ρ c (Proc.devRef .tc main_v47)) = _
  rw [w3_v43, w3_v30, w3_v44, w3_v45, w3_v46, w3_v47]
  exact proj_shape _ _ _ _ _ _

/-! ## The third stretch of host operations -/

theorem w5_v61 : W5 m ρ c (Proc.devRef .tc main_v61) = Cert.Net.aggG (edges (m ((c.tc : Thread nD τ).loc main_arg2))) (rowOf (m ((c.tc : Thread nD τ).loc main_arg2))) (dinv (m ((c.tc : Thread nD τ).loc main_arg2))) (Cert.Net.projG (H2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.ReferenceIdeal.Read.val_main_v69 (F := Ideal) (m ((c.tc : Thread nD τ).loc main_arg9)))) := by
  show StableHlo.after hostOps2 (W4 m ρ c) (Proc.devRef .tc main_v61) = _
  after_results_simp
  rw [w4_v1, w4_v3, w4_v12, w4_v48_1]
  exact KAgg.agg_narrow (m ((c.tc : Thread nD τ).loc main_arg2)) _ _ _ _ _ (fun _ => rfl) rfl rfl (fun n => KAgg.col_apply _ n)

theorem w5_v48_0 : W5 m ρ c (Proc.devRef .tc main_v48_0) = (H2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show StableHlo.after hostOps2 (W4 m ρ c) (Proc.devRef .tc main_v48_0) = _
  after_results_simp
  exact w4_v48_0 m ρ c

theorem w5_v62 : W5 m ρ c (Proc.devRef .tc main_v62) = Cert.ReferenceIdeal.Read.val_main_v74 (F := Ideal) (m ((c.tc : Thread nD τ).loc main_arg11)) := by
  show StableHlo.after hostOps2 (W4 m ρ c) (Proc.devRef .tc main_v62) = _
  after_results_simp
  rw [w4_arg11]
  rfl

theorem w5_v63 : W5 m ρ c (Proc.devRef .tc main_v63) = shapeCast S1x64 (m ((c.tc : Thread nD τ).loc main_arg10)) shapeCasts_S64_S1x64 := by
  show StableHlo.after hostOps2 (W4 m ρ c) (Proc.devRef .tc main_v63) = _
  after_results_simp
  rw [w4_arg10]
  rfl

/-! ## The last region: the result -/

/-- The result array after the run, entry by entry: the network's last layer, projecting first. -/
theorem result (n : Fin 100000) (j : Fin 64) :
    (W6 m ρ c (Proc.devRef .tc main_v64) : S100000x64.Idx → EReal) (ix2 n j)
      = Cert.Net.outProjFirst (edges (m ((c.tc : Thread nD τ).loc main_arg2))) (rowOf (m ((c.tc : Thread nD τ).loc main_arg2))) (dinv (m ((c.tc : Thread nD τ).loc main_arg2))) (H2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.ReferenceIdeal.Read.val_main_v69 (F := Ideal) (m ((c.tc : Thread nD τ).loc main_arg9)))
          (Cert.ReferenceIdeal.Read.val_main_v74 (F := Ideal) (m ((c.tc : Thread nD τ).loc main_arg11))) (fun j => (m ((c.tc : Thread nD τ).loc main_arg10)) (ix1 j)) n j := by
  have h : W6 m ρ c (Proc.devRef .tc main_v64)
      = KReg2.outG (Cert.Net.aggG (edges (m ((c.tc : Thread nD τ).loc main_arg2))) (rowOf (m ((c.tc : Thread nD τ).loc main_arg2))) (dinv (m ((c.tc : Thread nD τ).loc main_arg2))) (Cert.Net.projG (H2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.ReferenceIdeal.Read.val_main_v69 (F := Ideal) (m ((c.tc : Thread nD τ).loc main_arg9))))) (H2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (shapeCast S1x64 (m ((c.tc : Thread nD τ).loc main_arg10)) shapeCasts_S64_S1x64)
          (Cert.ReferenceIdeal.Read.val_main_v74 (F := Ideal) (m ((c.tc : Thread nD τ).loc main_arg11))) := by
    refine (W6_arr m ρ c 4).trans ((KReg2.final (V5 m ρ) c).trans ?_)
    show KReg2.outG (W5 m ρ c (Proc.devRef .tc main_v61)) (W5 m ρ c (Proc.devRef .tc main_v48_0)) (W5 m ρ c (Proc.devRef .tc main_v63))
      (W5 m ρ c (Proc.devRef .tc main_v62)) = _
    rw [w5_v61, w5_v48_0, w5_v63, w5_v62]
  rw [h]
  show KReg2.outAt _ _ _ _ n j = _
  unfold KReg2.outAt Cert.Net.outProjFirst
  rw [shapeCast_a_1a_apply (m ((c.tc : Thread nD τ).loc main_arg10)) shapeCasts_S64_S1x64 0 j]
  rfl

end Cert.KernelIdeal.KNet

end
-- ==== Proof.RefNet.lean ====
/-
  The reference network's stages, read as the plain-mathematics layers.

  The reference program computes, per layer, the mean aggregate of the features over the incoming edges (a gather of
  the source rows, a scatter-add onto the destination rows, a scaling by the inverse clipped in-degree) and an affine
  map of the aggregate and of the features. Here each such stage is identified with the corresponding closed form:
  the aggregate `aggG`, the hidden layer `hidG`, and the last layer in its aggregate-first arrangement.
-/
import proofs.«100264_j44272522887304_2_alg».proof.Proof.Gen.ReferenceIdeal.Read
import proofs.«100264_j44272522887304_2_alg».proof.Proof.Layers
import proofs.«100264_j44272522887304_2_alg».proof.Proof.LibRowGather
import proofs.«100264_j44272522887304_2_alg».proof.Proof.LibRealSums
import proofs.«100264_j44272522887304_2_alg».proof.Proof.EdgeData
import Idealize.ShloMosaic.Lib.ValueLayout
import Idealize.ShloMosaic.Lib.ValueIdx
import Idealize.ShloMosaic.PureOps.Ideal.Laws

noncomputable section

open scoped BigOperators

namespace Cert.ReferenceIdeal.RefNet

open Cert.ReferenceIdeal Cert.ReferenceIdeal.Gen Cert.ReferenceIdeal.Read Idealize.ShloMosaic Idealize.ShloMosaic.ValueIdx Cert.RealVal Cert.EdgeData

/-- The edge stage of any feature array `h` — gather the source rows, scatter-add them from zero onto the destination
    rows, scale by the inverse degree — is the mean aggregate of `h`. -/
theorem agg_eq (x2 : (⟨2, ![2, 1600000]⟩ : Shape).Idx → BitVec 32) (h : S100000x128.Idx → EReal) :
    mulf (F := Ideal) (φ := .f32)
      (Host.scatterAdd scatter_S100000x128_S1600000x1_S1600000x128_1_0_0_1 (val_main_v19 (F := Ideal))
        (val_main_v20 (F := Ideal) x2)
        (Host.gather gather_S100000x128_S1600000x1_S1600000x128_1_0_n_n_0_1_1128 h (val_main_v17 (F := Ideal) x2)))
      (val_main_v23 (F := Ideal) x2)
      = Cert.Net.aggG (edges x2) (rowOf x2) (dinv x2) h := by
  funext i
  obtain ⟨n, c, rfl⟩ : ∃ (n : Fin 100000) (c : Fin 128), i = ix2 n c := ⟨i 0, i 1, eq_ix2 i⟩
  rw [Cert.Net.aggG_ix2]
  unfold Cert.Net.aggAt
  rw [mulf_apply]
  have hs : (scatter_S100000x128_S1600000x1_S1600000x128_1_0_0_1 : ScatterDims S100000x128 S1600000x1 S1600000x128)
      = Cert.RowOps.rowScatter 100000 1600000 128 scatter_S100000x128_S1600000x1_S1600000x128_1_0_0_1_wf := rfl
  have hg : (gather_S100000x128_S1600000x1_S1600000x128_1_0_n_n_0_1_1128 : GatherDims S100000x128 S1600000x1 S1600000x128)
      = Cert.RowOps.rowGather 100000 1600000 128 gather_S100000x128_S1600000x1_S1600000x128_1_0_n_n_0_1_1128_wf := rfl
  rw [hs, hg, Cert.RowOps.rowScatterAdd_apply]
  have h19 : val_main_v19 (F := Ideal) (ix2 n c) = Ideal.ofBits .f32 0x00000000#32 := by
    rw [val_main_v19_apply, val_main_cst_4_apply]; rfl
  have h23 : val_main_v23 (F := Ideal) x2 (ix2 n c) = dinv x2 n := by
    rw [val_main_v23_apply, val_main_v22_apply]
    unfold dinv
    congr 1
    funext a
    match a with
    | ⟨0, _⟩ => rfl
  rw [h19, h23]
  refine congrArg (fun s => (Ideal.ofBits .f32 0x00000000#32 + s) * dinv x2 n) ?_
  unfold edges
  refine Finset.sum_congr rfl fun e _ => ?_
  exact Cert.RowOps.rowGather_apply (by decide) _ h _ e c

/-! ## The hidden layers -/

/-- The contraction of a `[100000,128]` array with a `[128,128]` array over the shared axis, read at `(n, j)`: the sum
    over `k` of the products `y0[n,k] · y1[k,j]`. -/
theorem dot128_apply (y0 : FVec Ideal S100000x128 .f32) (y1 : FVec Ideal S128x128 .f32) (n : Fin 100000) (j : Fin 128) :
    Host.dotGeneral dot_S100000x128_S128x128_S100000x128_1_0_0_1_n_n none y0 y1 (ix2 n j)
      = ∑ k : Fin 128, y0 (ix2 n k) * y1 (ix2 k j) := by
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 n j)
      ((contrEquiv1 dot_S100000x128_S128x128_S100000x128_1_0_0_1_n_n 128 rfl rfl).symm k) = ix2 n k :=
    funext fun a => Fin.ext (by
      match a with
      | ⟨0, _⟩ => exact lhs_main_v26_0 _ _
      | ⟨1, _⟩ => exact (lhs_main_v26_1 _ _).trans hk)
  have er : dot_S100000x128_S128x128_S100000x128_1_0_0_1_n_n.rhsIdx (ix2 n j)
      ((contrEquiv1 dot_S100000x128_S128x128_S100000x128_1_0_0_1_n_n 128 rfl rfl).symm k) = ix2 k j :=
    funext fun a => Fin.ext (by
      match a with
      | ⟨0, _⟩ => exact (rhs_main_v26_0 _ _).trans hk
      | ⟨1, _⟩ => exact rhs_main_v26_1 _ _)
  rw [el, er]

/-- The affine part of a hidden layer followed by the maximum with zero, over arbitrary operands: for an aggregate
    array `a`, a feature array `h`, weights `w1`, `w2`, an array `bb` that is the bias `b` repeated along the rows and an
    array `z` that is zero everywhere, `max ((a·w1 + bb) + h·w2) z` is the hidden layer `hidG a h w1 w2 b`. -/
theorem hid_generic (a h : FVec Ideal S100000x128 .f32) (w1 w2 : FVec Ideal S128x128 .f32)
    (bb z : FVec Ideal S100000x128 .f32) (b : Fin 128 → EReal)
    (hbb : ∀ (n : Fin 100000) (j : Fin 128), bb (ix2 n j) = b j)
    (hz : ∀ i, z i = Ideal.ofBits .f32 0x00000000#32) :
    maximumf (addf (addf (Host.dotGeneral dot_S100000x128_S128x128_S100000x128_1_0_0_1_n_n none a w1) bb)
        (Host.dotGeneral dot_S100000x128_S128x128_S100000x128_1_0_0_1_n_n none h w2)) z
      = Cert.Net.hidG a h w1 w2 b := by
  funext i
  obtain ⟨n, j, rfl⟩ : ∃ (n : Fin 100000) (j : Fin 128), i = ix2 n j := ⟨i 0, i 1, eq_ix2 i⟩
  rw [Cert.Net.hidG_ix2, maximumf_apply, addf_apply, addf_apply, dot128_apply, dot128_apply, hbb, hz]
  unfold Cert.Net.hidAt
  rw [add_right_comm]

/-- A bias vector repeated along the rows, read at `(n, j)`, is the bias at `j`. -/
theorem bias128_apply (b : (⟨1, ![128]⟩ : Shape).Idx → EReal) (n : Fin 100000) (j : Fin 128) :
    val_main_v28 (F := Ideal) b (ix2 n j) = b (ix1 j) := by
  rw [val_main_v28_apply, val_main_v27_apply]
  congr 1
  funext a
  match a with
  | ⟨0, _⟩ => rfl

/-- The zero array read anywhere is zero. -/
theorem zero128_apply (i : S100000x128.Idx) :
    val_main_call0_v0 (F := Ideal) i = Ideal.ofBits .f32 0x00000000#32 := by
  rw [val_main_call0_v0_apply, val_main_call0_cst_apply]
  rfl

/-- The first aggregate stage is the mean aggregate of the input features. -/
theorem v24_eq (x0 : (⟨2, ![100000, 128]⟩ : Shape).Idx → EReal) (x2 : (⟨2, ![2, 1600000]⟩ : Shape).Idx → BitVec 32) :
    val_main_v24 (F := Ideal) x0 x2 = Cert.Net.aggG (edges x2) (rowOf x2) (dinv x2) x0 := by
  unfold val_main_v24 val_main_v21 val_main_v18
  exact agg_eq x2 x0

/-- The first hidden stage of the reference is the first hidden layer. -/
theorem h1_eq (x0 : (⟨2, ![100000, 128]⟩ : Shape).Idx → EReal) (x2 : (⟨2, ![2, 1600000]⟩ : Shape).Idx → BitVec 32)
    (x3 : (⟨2, ![128, 128]⟩ : Shape).Idx → EReal) (x4 : (⟨1, ![128]⟩ : Shape).Idx → EReal)
    (x5 : (⟨2, ![128, 128]⟩ : Shape).Idx → EReal) :
    val_main_v33 (F := Ideal) x0 x2 x3 x4 x5 = H1 x0 x2 x3 x4 x5 := by
  unfold val_main_v33 val_main_v32 val_main_v29 val_main_v26 val_main_v31 H1
  rw [v24_eq]
  exact hid_generic _ _ _ _ _ _ _ (fun n j => bias128_apply x4 n j) (fun i => zero128_apply i)

/-- The second aggregate stage is the mean aggregate of the first hidden stage. -/
theorem v46_eq (x0 : (⟨2, ![100000, 128]⟩ : Shape).Idx → EReal) (x2 : (⟨2, ![2, 1600000]⟩ : Shape).Idx → BitVec 32)
    (x3 : (⟨2, ![128, 128]⟩ : Shape).Idx → EReal) (x4 : (⟨1, ![128]⟩ : Shape).Idx → EReal)
    (x5 : (⟨2, ![128, 128]⟩ : Shape).Idx → EReal) :
    val_main_v46 (F := Ideal) x0 x2 x3 x4 x5
      = Cert.Net.aggG (edges x2) (rowOf x2) (dinv x2) (val_main_v33 (F := Ideal) x0 x2 x3 x4 x5) := by
  unfold val_main_v46 val_main_v43 val_main_v40
  exact agg_eq x2 _

/-- The second hidden stage of the reference is the second hidden layer. -/
theorem h2_eq (x0 : (⟨2, ![100000, 128]⟩ : Shape).Idx → EReal) (x2 : (⟨2, ![2, 1600000]⟩ : Shape).Idx → BitVec 32)
    (x3 : (⟨2, ![128, 128]⟩ : Shape).Idx → EReal) (x4 : (⟨1, ![128]⟩ : Shape).Idx → EReal)
    (x5 x6 : (⟨2, ![128, 128]⟩ : Shape).Idx → EReal) (x7 : (⟨1, ![128]⟩ : Shape).Idx → EReal)
    (x8 : (⟨2, ![128, 128]⟩ : Shape).Idx → EReal) :
    val_main_v55 (F := Ideal) x0 x2 x3 x4 x5 x6 x7 x8 = H2 x0 x2 x3 x4 x5 x6 x7 x8 := by
  unfold val_main_v55 val_main_v54 val_main_v51 val_main_v48 val_main_v53 H2
  rw [v46_eq, h1_eq]
  exact hid_generic _ _ _ _ _ _ _ (fun n j => bias128_apply x7 n j) (fun i => zero128_apply i)

/-! ## The last layer -/

/-- The contraction of a `[100000,128]` array with a `[128,64]` array over the shared axis, read at `(n, j)`: the sum
    over `k` of the products `y0[n,k] · y1[k,j]`. -/
theorem dot64_apply (y0 : FVec Ideal S100000x128 .f32) (y1 : FVec Ideal S128x64 .f32) (n : Fin 100000) (j : Fin 64) :
    Host.dotGeneral dot_S100000x128_S128x64_S100000x64_1_0_0_1_n_n none y0 y1 (ix2 n j)
      = ∑ k : Fin 128, y0 (ix2 n k) * y1 (ix2 k j) := by
  simp only [Host.dotGeneral]
  rw [Ideal.dotGeneral_apply,
    ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 n j)
      ((contrEquiv1 dot_S100000x128_S128x64_S100000x64_1_0_0_1_n_n 128 rfl rfl).symm k) = ix2 n k :=
    funext fun a => Fin.ext (by
      match a with
      | ⟨0, _⟩ => exact lhs_main_v70_0 _ _
      | ⟨1, _⟩ => exact (lhs_main_v70_1 _ _).trans hk)
  have er : dot_S100000x128_S128x64_S100000x64_1_0_0_1_n_n.rhsIdx (ix2 n j)
      ((contrEquiv1 dot_S100000x128_S128x64_S100000x64_1_0_0_1_n_n 128 rfl rfl).symm k) = ix2 k j :=
    funext fun a => Fin.ext (by
      match a with
      | ⟨0, _⟩ => exact (rhs_main_v70_0 _ _).trans hk
      | ⟨1, _⟩ => exact rhs_main_v70_1 _ _)
  rw [el, er]

/-- The last layer's bias repeated along the rows, read at `(n, j)`, is the bias at `j`. -/
theorem bias64_apply (b : (⟨1, ![64]⟩ : Shape).Idx → EReal) (n : Fin 100000) (j : Fin 64) :
    val_main_v72 (F := Ideal) b (ix2 n j) = b (ix1 j) := by
  rw [val_main_v72_apply, val_main_v71_apply]
  congr 1
  funext a
  match a with
  | ⟨0, _⟩ => rfl

/-- The third aggregate stage is the mean aggregate of the second hidden stage. -/
theorem v68_eq (x0 : (⟨2, ![100000, 128]⟩ : Shape).Idx → EReal) (x2 : (⟨2, ![2, 1600000]⟩ : Shape).Idx → BitVec 32)
    (x3 : (⟨2, ![128, 128]⟩ : Shape).Idx → EReal) (x4 : (⟨1, ![128]⟩ : Shape).Idx → EReal)
    (x5 x6 : (⟨2, ![128, 128]⟩ : Shape).Idx → EReal) (x7 : (⟨1, ![128]⟩ : Shape).Idx → EReal)
    (x8 : (⟨2, ![128, 128]⟩ : Shape).Idx → EReal) :
    val_main_v68 (F := Ideal) x0 x2 x3 x4 x5 x6 x7 x8
      = Cert.Net.aggG (edges x2) (rowOf x2) (dinv x2) (val_main_v55 (F := Ideal) x0 x2 x3 x4 x5 x6 x7 x8) := by
  unfold val_main_v68 val_main_v65 val_main_v62
  exact agg_eq x2 _

/-- The reference's result at node `n`, channel `j` is the last layer in its aggregate-first arrangement, on the second
    hidden layer. -/
theorem out_eq (x0 : (⟨2, ![100000, 128]⟩ : Shape).Idx → EReal) (x2 : (⟨2, ![2, 1600000]⟩ : Shape).Idx → BitVec 32)
    (x3 : (⟨2, ![128, 128]⟩ : Shape).Idx → EReal) (x4 : (⟨1, ![128]⟩ : Shape).Idx → EReal)
    (x5 x6 : (⟨2, ![128, 128]⟩ : Shape).Idx → EReal) (x7 : (⟨1, ![128]⟩ : Shape).Idx → EReal)
    (x8 : (⟨2, ![128, 128]⟩ : Shape).Idx → EReal) (x9 : (⟨2, ![64, 128]⟩ : Shape).Idx → EReal)
    (x10 : (⟨1, ![64]⟩ : Shape).Idx → EReal) (x11 : (⟨2, ![64, 128]⟩ : Shape).Idx → EReal)
    (n : Fin 100000) (j : Fin 64) :
    val_main_v76 (F := Ideal) x0 x2 x3 x4 x5 x6 x7 x8 x9 x10 x11 (ix2 n j)
      = Cert.Net.outAggFirst (edges x2) (rowOf x2) (dinv x2) (H2 x0 x2 x3 x4 x5 x6 x7 x8)
          (val_main_v69 (F := Ideal) x9) (val_main_v74 (F := Ideal) x11) (fun j => x10 (ix1 j)) n j := by
  unfold val_main_v76 val_main_v73 val_main_v70 val_main_v75
  rw [addf_apply, addf_apply, v68_eq, h2_eq, dot64_apply, dot64_apply, bias64_apply]
  rfl

/-! ## The inverse degree is a real number -/

/-- A scatter-add of real updates into a real operand is real at every index: each element is the operand's element
    plus a finite sum of updates. -/
theorem isReal_scatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Host.scatterAdd (F := Ideal) (φ := .f32) d x idx upd i) := by
  unfold Host.scatterAdd
  rw [Ideal.hostScatterAdd_def]
  unfold Ideal.hostScatterAdd
  exact (hx i).add (IsReal.sum _ _ fun j _ => hu j)

/-- The in-degree of a node — ones scatter-added into zeros — is a real number. -/
theorem isReal_deg (x2 : (⟨2, ![2, 1600000]⟩ : Shape).Idx → BitVec 32) (i : S100000.Idx) :
    IsReal (val_main_v7 (F := Ideal) x2 i) := by
  unfold val_main_v7
  refine isReal_scatterAdd _ _ _ _ (fun i => ?_) (fun j => ?_) i
  · rw [val_main_v5_apply, val_main_cst_0_apply, Ideal.ofBits_def, Ideal.ofBits_zero_f32]
    exact isReal_zero
  · rw [val_main_v4_apply, val_main_cst_apply, Ideal.ofBits_def, ofBits_one_f32]
    exact isReal_one

/-- The inverse clipped in-degree is a real number: the reciprocal of a real clipped below at one. -/
theorem isReal_dinv (x2 : (⟨2, ![2, 1600000]⟩ : Shape).Idx → BitVec 32) (n : Fin 100000) : IsReal (dinv x2 n) := by
  unfold dinv
  rw [val_main_v11_apply, Ideal.hostDivf_def, val_main_v10_apply, val_main_cst_2_apply, val_main_v9_apply,
    Ideal.maximumf_def, val_main_v8_apply, val_main_cst_1_apply, Ideal.ofBits_def, ofBits_one_f32]
  exact isReal_recip_max_one (isReal_deg x2 _)

end Cert.ReferenceIdeal.RefNet

end
-- ==== Proof.FiniteArgs.lean ====
/-
  From the finiteness precondition to real entries. The precondition is printed as a conjunction, over the float
  argument arrays, of `all(|x| < +∞)`: the absolute value of every entry is compared with the f32 pattern
  0x7F800000 (which denotes +∞), and the comparisons are folded by `and` from 1 into a single bit. Over the extended
  reals |x| = max x (-x), and max x (-x) < ⊤ excludes both x = ⊤ and x = ⊥, so x is (the coercion of) a real number.
  `real_of_all` is this for one array of any shape; `real_of_fn` applies it to each conjunct of the printed predicate.
-/
import proofs.«100264_j44272522887304_2_alg».proof.Pre_finite_inputs
import Idealize.ShloMosaic.Lib.ReduceAll
import Idealize.ShloMosaic.Lib.ValueIdx
import Idealize.ShloMosaic.PureOps.Ideal

noncomputable section

namespace Cert.FiniteArgs

open Idealize.ShloMosaic

/-- The rank-0 shape has exactly one index. -/
instance subsingleton_idx0 : Subsingleton (⟨0, ![]⟩ : Shape).Idx := ⟨fun a b => funext fun d => d.elim0⟩

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 (exponent all ones, fraction zero, sign clear) denotes +∞. -/
theorem ofBits_inf : Ideal.ofBits .f32 0x7F800000#32 = (⊤ : EReal) := by
  simp [Ideal.ofBits, Ideal.ieee]

/-- One `all(|x| < +∞)` over an array of any shape: if the `and` of all the comparisons of |x i| with +∞ is 1,
    every entry x i is a real number. -/
theorem real_of_all {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32)
    (h : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1) :
    ∀ i, ∃ r : ℝ, x i = (r : EReal) := by
  intro i
  -- the fold by `and` is 1, so the comparison at i is 1
  have e := Host.reduce_andi_all _ _ hr hu ValueIdx.ix0 h i
  apply real_of_abs_lt_top
  simp only [cmpf, Host.absf, broadcastInDim, constant] at e
  -- at the extended reals the comparison is the order's, |x| is max x (-x), and the pattern is +∞
  have e' : Ideal.cmp .olt (max (x i) (-x i)) (Ideal.ofBits .f32 0x7F800000#32) = 1#1 := e
  rw [ofBits_inf] at e'
  by_contra hn
  simp [Ideal.cmp, hn] at e'

open Cert.Pre_finite_inputs in
/-- If the printed finiteness predicate of the twelve argument arrays is 1, every entry of each float array the
    programs read (arguments 0 and 3 to 11) is a real number. -/
theorem real_of_fn [Cert.Pre_finite_inputs.Facts]
    (a0 : FVec Ideal S100000x128 .f32) (a1 : FVec Ideal S1600000x4 .f32) (a2 : IVec S2x1600000 32)
    (a3 : FVec Ideal S128x128 .f32) (a4 : FVec Ideal S128 .f32) (a5 : FVec Ideal S128x128 .f32)
    (a6 : FVec Ideal S128x128 .f32) (a7 : FVec Ideal S128 .f32) (a8 : FVec Ideal S128x128 .f32)
    (a9 : FVec Ideal S64x128 .f32) (a10 : FVec Ideal S64 .f32) (a11 : FVec Ideal S64x128 .f32)
    (h : Cert.Pre_finite_inputs.fn (F := Ideal) a0 a1 a2 a3 a4 a5 a6 a7 a8 a9 a10 a11 = (fun _ => 1#1)) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal))
      ∧ (∀ i, ∃ r : ℝ, a11 i = (r : EReal)) := by
  -- the predicate's one bit, as the conjunction of the eleven folds
  have e := congrFun h ValueIdx.ix0
  dsimp only [fn, fn_part1, fn_part2, fn_part3] at e
  simp only [andi, IntOp.andi_eq_one] at e
  obtain ⟨⟨⟨⟨⟨⟨⟨⟨⟨⟨h0, -⟩, h3⟩, h4⟩, h5⟩, h6⟩, h7⟩, h8⟩, h9⟩, h10⟩, h11⟩ := e
  exact ⟨real_of_all _ _ _ a0 h0, real_of_all _ _ _ a3 h3, real_of_all _ _ _ a4 h4, real_of_all _ _ _ a5 h5,
    real_of_all _ _ _ a6 h6, real_of_all _ _ _ a7 h7, real_of_all _ _ _ a8 h8, real_of_all _ _ _ a9 h9,
    real_of_all _ _ _ a10 h10, real_of_all _ _ _ a11 h11⟩

end Cert.FiniteArgs

end
-- ==== Proof.Bridge.lean ====
/-
  The assembly. Both idealized programs compute the same three-layer mean-aggregation network from the same edge
  data: the kernel in the arrangement that projects the second hidden features by the last layer's left weights
  before aggregating them over the edges, the reference in the arrangement that aggregates first. The two agree
  where every value is a real number, and the precondition — every float input finite — makes every input, hence
  every hidden feature, weight and inverse degree, a real number.
-/
import proofs.«100264_j44272522887304_2_alg».proof.Defs
import proofs.«100264_j44272522887304_2_alg».proof.Proof.Gen.Kernel.Frame
import proofs.«100264_j44272522887304_2_alg».proof.Proof.Gen.KernelIdeal.Frame
import proofs.«100264_j44272522887304_2_alg».proof.Proof.Gen.ReferenceIdeal.Read
import proofs.«100264_j44272522887304_2_alg».proof.Proof.Gen.Pre_finite_inputs
import proofs.«100264_j44272522887304_2_alg».proof.Proof.KNet
import proofs.«100264_j44272522887304_2_alg».proof.Proof.RefNet
import proofs.«100264_j44272522887304_2_alg».proof.Proof.FiniteArgs
import proofs.«100264_j44272522887304_2_alg».proof.Proof.Layers

set_option maxRecDepth 16384

noncomputable section

namespace Cert.Proof.Bridge

open Idealize.ShloMosaic Idealize.ShloMosaic.TcCoe Idealize.ShloMosaic.ValueIdx Idealize.SL.Sem
open Cert.RealVal Cert.EdgeData

/-- A transposed array of reals is an array of reals. -/
theorem isReal_transpose {s t : Shape} {perm : List (Fin s.rank)} (x : s.Idx → EReal) (h : s.Transposes perm t)
    (hx : ∀ i, IsReal (x i)) (j : t.Idx) : IsReal (transpose t perm x h j) := hx _

/-- The first hidden features of real inputs are real. -/
theorem isReal_H1 (x0 : (⟨2, ![100000, 128]⟩ : Shape).Idx → EReal) (x2 : (⟨2, ![2, 1600000]⟩ : Shape).Idx → BitVec 32)
    (x3 : (⟨2, ![128, 128]⟩ : Shape).Idx → EReal) (x4 : (⟨1, ![128]⟩ : Shape).Idx → EReal)
    (x5 : (⟨2, ![128, 128]⟩ : Shape).Idx → EReal)
    (h0 : ∀ i, IsReal (x0 i)) (h3 : ∀ i, IsReal (x3 i)) (h4 : ∀ i, IsReal (x4 i)) (h5 : ∀ i, IsReal (x5 i))
    (hd : ∀ n, IsReal (dinv x2 n)) (i : (⟨2, ![100000, 128]⟩ : Shape).Idx) : IsReal (H1 x0 x2 x3 x4 x5 i) :=
  Cert.Net.isReal_hidG _ _ _ _ _ (Cert.Net.isReal_aggG _ _ _ _ h0 hd) h0
    (fun i => isReal_transpose x3 _ h3 i) (fun i => isReal_transpose x5 _ h5 i) (fun j => h4 _) i

/-- The second hidden features of real inputs are real. -/
theorem isReal_H2 (x0 : (⟨2, ![100000, 128]⟩ : Shape).Idx → EReal) (x2 : (⟨2, ![2, 1600000]⟩ : Shape).Idx → BitVec 32)
    (x3 : (⟨2, ![128, 128]⟩ : Shape).Idx → EReal) (x4 : (⟨1, ![128]⟩ : Shape).Idx → EReal)
    (x5 x6 : (⟨2, ![128, 128]⟩ : Shape).Idx → EReal) (x7 : (⟨1, ![128]⟩ : Shape).Idx → EReal)
    (x8 : (⟨2, ![128, 128]⟩ : Shape).Idx → EReal)
    (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i))
    (hd : ∀ n, IsReal (dinv x2 n)) (i : (⟨2, ![100000, 128]⟩ : Shape).Idx) :
    IsReal (H2 x0 x2 x3 x4 x5 x6 x7 x8 i) :=
  Cert.Net.isReal_hidG _ _ _ _ _
    (Cert.Net.isReal_aggG _ _ _ _ (isReal_H1 x0 x2 x3 x4 x5 h0 h3 h4 h5 hd) hd)
    (isReal_H1 x0 x2 x3 x4 x5 h0 h3 h4 h5 hd)
    (fun i => isReal_transpose x6 _ h6 i) (fun i => isReal_transpose x8 _ h8 i) (fun j => h7 _) i

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- From memories agreeing on the arguments both programs run to the same result array: the kernel's is the network
    projecting first, the reference's the network aggregating first, and on the real-valued inputs the precondition
    gives these are equal entry by entry. -/
theorem algebraic : Cert.algebraic_KernelIdeal_ReferenceIdeal := by
  intro m ρ m' ρ' hpre hagree
  refine ⟨fun c => Cert.KernelIdeal.Gen.W6 m ρ c (Proc.devRef .tc Cert.KernelIdeal.main_v64),
    Cert.KernelIdeal.KRun.run_result m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v76_eq]
  rw [(hagree c).1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  obtain ⟨r0, r3, r4, r5, r6, r7, r8, r9, r10, r11⟩ := Cert.FiniteArgs.real_of_fn _ _ _ _ _ _ _ _ _ _ _ _ (hpre c)
  have hd : ∀ n, IsReal (dinv (m ((c.tc : Thread Cert.KernelIdeal.nD Cert.KernelIdeal.τ).loc Cert.KernelIdeal.main_arg2)) n) := fun n => Cert.ReferenceIdeal.RefNet.isReal_dinv _ n
  refine funext fun i => ?_
  obtain ⟨n, j, rfl⟩ : ∃ (n : Fin 100000) (j : Fin 64), i = ix2 n j := ⟨i 0, i 1, eq_ix2 i⟩
  refine (Cert.ReferenceIdeal.RefNet.out_eq _ _ _ _ _ _ _ _ _ _ _ n j).trans ?_
  refine Eq.trans ?_ (Cert.KernelIdeal.KNet.result m ρ c n j).symm
  exact (Cert.Net.out_eq _ _ _ _ _ _ _
    (isReal_H2 _ _ _ _ _ _ _ _ r0 r3 r4 r5 r6 r7 r8 hd)
    (fun i => isReal_transpose _ _ r9 i) hd n j).symm

end Cert.Proof.Bridge

end
-- ==== Proof.lean ====
/-
  The certificate's five claims for a three-layer mean-aggregation graph network: the Pallas kernel's program (three
  grid regions over blocks of 5000 node rows, the edge gather and scatter-add on the host) against the plain
  reference. The three frames are the generated ones (the reference's is its generated run with the result dropped);
  the idealization rewrote nothing; and the two idealized programs end with equal results because both compute the
  same network — the kernel projecting the second hidden features by the last layer's left weights before the edge
  aggregation, the reference after it — which agree on real-valued inputs (Proof/Bridge.lean, over Proof/Layers.lean).
-/
import proofs.«100264_j44272522887304_2_alg».proof.Defs
import proofs.«100264_j44272522887304_2_alg».proof.Proof.Gen.Kernel
import proofs.«100264_j44272522887304_2_alg».proof.Proof.Gen.Kernel.Skeleton
import proofs.«100264_j44272522887304_2_alg».proof.Proof.Gen.Kernel.Launch
import proofs.«100264_j44272522887304_2_alg».proof.Proof.Gen.Kernel.Points
import proofs.«100264_j44272522887304_2_alg».proof.Proof.Gen.Kernel.Frame
import proofs.«100264_j44272522887304_2_alg».proof.Proof.Gen.KernelIdeal
import proofs.«100264_j44272522887304_2_alg».proof.Proof.Gen.KernelIdeal.Skeleton
import proofs.«100264_j44272522887304_2_alg».proof.Proof.Gen.KernelIdeal.Launch
import proofs.«100264_j44272522887304_2_alg».proof.Proof.Gen.KernelIdeal.Points
import proofs.«100264_j44272522887304_2_alg».proof.Proof.Gen.KernelIdeal.Frame
import proofs.«100264_j44272522887304_2_alg».proof.Proof.Gen.ReferenceIdeal
import proofs.«100264_j44272522887304_2_alg».proof.Proof.Gen.ReferenceIdeal.Read
import proofs.«100264_j44272522887304_2_alg».proof.Proof.Gen.Pre_finite_inputs
import proofs.«100264_j44272522887304_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Bridge.frame_k, Cert.Proof.Bridge.frame_ki, Cert.Proof.Bridge.frame_ri, Cert.Proof.Bridge.preserves,
  Cert.Proof.Bridge.algebraic⟩

end Cert.Proof

end
